-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S2x10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S1x128 : Shape := ⟨2, ![1, 128]⟩
abbrev S1x400x10000 : Shape := ⟨3, ![1, 400, 10000]⟩
abbrev S400x128 : Shape := ⟨2, ![400, 128]⟩
abbrev S400x10000 : Shape := ⟨2, ![400, 10000]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | .local _ .vmem, ⟨10, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v27 : BitVec 32 := Scalar.muli arg1 c400_i32
  let v28 : Index := Scalar.indexCast v27
  let c0_15 : Index := 0#32
  ![v28.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off1_packedbf16 : ∀ i : grid0.Coords, ∀ (k0_h2 : k0_cond2 i = 1#1), (Rect.unit (s := S10000x128) (k0_off1 i) S400x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S1x10000x10000 : Shape := ⟨3, ![1, 10000, 10000]⟩
abbrev S10000x10000 : Shape := ⟨2, ![10000, 10000]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x10000x10000, .f32⟩
  | .hbm, ⟨8, _⟩ => ⟨S10000x10000, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x10000x10000, .f32⟩
  | .hbm, ⟨18, _⟩ => ⟨S10000x10000, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x10000x10000_S1x10000x10000_1_0_0 : S2x10000x10000.Slices ![1, 0, 0] S1x10000x10000
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelBody.Shared.lean ====
/-
  What the three runs of the kernel body share: which of the body's three conditionals a grid point takes (decided once over
  the 2 × 25 grid: the first is taken at point 0 only, the second at points 0 … 24 — the first layer —, the third at
  points 25 … 49 — the second layer), where the output window is idle and where it is written back (idle during the first
  layer, written back at every point of the second), the staging memrefs the pipeline hands the body at a point, and the
  two scratch buffers the kernel keeps between points.
-/
import proofs.«161590_g70901320122855_cont_9to1c4b_733_13_alg».proof.Proof.Gen.Kernel.Frame
import proofs.«161590_g70901320122855_cont_9to1c4b_733_13_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's three conditionals over the grid -/

/-- "first layer and first row block": the condition under which the body computes `x · W1` into the first scratch. -/
abbrev condInit (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem condInit_iff : ∀ t : Fin cfg0.N, condInit (grid0.coords t) ↔ t.val = 0 :=
  (by decide +kernel : ∀ t : Fin grid0.N, condInit (grid0.coords t) ↔ t.val = 0)

/-- "first layer": the condition under which the body fills one slice of the second scratch. -/
abbrev condL0 (i : grid0.Coords) : Prop := k0_cond2 i = 1#1
/-- It holds at the points before point 25. -/
theorem condL0_iff : ∀ t : Fin cfg0.N, condL0 (grid0.coords t) ↔ t.val < 25 :=
  (by decide +kernel : ∀ t : Fin grid0.N, condL0 (grid0.coords t) ↔ t.val < 25)

/-- "second layer": the condition under which the body stores a block of the result. -/
abbrev condL1 (i : grid0.Coords) : Prop := k0_cond3 i = 1#1
/-- It holds from point 25 on. -/
theorem condL1_iff : ∀ t : Fin cfg0.N, condL1 (grid0.coords t) ↔ 25 ≤ t.val :=
  (by decide +kernel : ∀ t : Fin grid0.N, condL1 (grid0.coords t) ↔ 25 ≤ t.val)

/-- The row offset of the slice of the second scratch a first-layer point fills: 400 times the point's number. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the result's is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The result's window is idle exactly during the first layer. -/
theorem idle6_iff : ∀ t : Fin cfg0.N, cfg0.idle 6 (grid0.coords t) = true ↔ t.val < 25 :=
  (by decide +kernel : ∀ t : Fin grid0.N, cfg0.idle 6 (grid0.coords t) = true ↔ t.val < 25)
/-- The result's block is written back exactly at the points of the second layer. -/
theorem flush6_iff : ∀ t : Fin cfg0.N, (cfg0.win 6).flush t = true ↔ 25 ≤ t.val :=
  (by decide +kernel : ∀ t : Fin grid0.N, win0_6.flush t = true ↔ 25 ≤ t.val)
/-- The block of the result a second-layer point writes: block number "point − 25". -/
theorem index6_eq : ∀ t : Fin cfg0.N, 25 ≤ t.val → win0_6.index t = ![t.val - 25, 0] :=
  (by decide +kernel : ∀ t : Fin grid0.N, 25 ≤ t.val → win0_6.index t = ![t.val - 25, 0])

/-! ## The memrefs the body is called with -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The two scratch buffers: `x · W1`, and the second layer's input `hidden · W2`. -/
abbrev scr0 : Memref sig .tc .vmem S10000x128 .bf16 := Memref.whole cc0_scratch0
abbrev scr1 : Memref sig .tc .vmem S10000x128 .bf16 := Memref.whole cc0_scratch1

/-- What the launch hands the region besides the windows: both scratch buffers at some contents, and the generator register. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

end Cert.Kernel.Body

end
-- ==== Proof.KernelBody.RunB.lean ====
import proofs.«161590_g70901320122855_cont_9to1c4b_733_13_alg».proof.Proof.KernelBody.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a first-layer point after the first (only the middle conditional taken): on whole memrefs holding the
    point's input blocks, the result's staging buffer at `x6`, the first scratch at `xs0` and the second at `xs1`, it runs to
    the same except that the second scratch has the pieces `LB` written over what it held — the one slice this point fills. -/
noncomputable def runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs0 : Vec F S10000x128 .bf16) (xs1 : Vec F S10000x128 .bf16) :
    { LB : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (∃ f, ⌜arg10.view.read (Elt F) f = xs1⌝ ∗ (arg10.view.loc (c : Thread nD τ) ↦[arg10.view.set]{fullShare} arg10.view.writes (Elt F) f LB))) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

end Cert.Kernel.Body

end
-- ==== Proof.KernelBody.RunA.lean ====
import proofs.«161590_g70901320122855_cont_9to1c4b_733_13_alg».proof.Proof.KernelBody.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the first point (the first two conditionals taken): on whole memrefs holding the point's input blocks,
    the result's staging buffer at `x6`, the first scratch at anything and the second at `xs1`, it runs to the same except
    that the first scratch has the pieces `LA.1` written (all of it: `x · W1`) and the second the pieces `LA.2` written over
    what it held (its first slice). -/
noncomputable def runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) :
    (LA0 : List (View.Piece (Elt F) S10000x128 .bf16)) ×' (LA1 : List (View.Piece (Elt F) S10000x128 .bf16)) ×'
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LA0) ∗ (∃ f, ⌜arg10.view.read (Elt F) f = xs1⌝ ∗ (arg10.view.loc (c : Thread nD τ) ↦[arg10.view.set]{fullShare} arg10.view.writes (Elt F) f LA1))) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; isplitr; · ipureintro; exact harg10.read_unread _
    iexact HS1

end Cert.Kernel.Body

end
-- ==== Proof.KernelBody.RunC.lean ====
import proofs.«161590_g70901320122855_cont_9to1c4b_733_13_alg».proof.Proof.KernelBody.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a second-layer point (only the last conditional taken): on whole memrefs holding the point's input
    blocks, the result's staging buffer at anything, the first scratch at `xs0` and the second at `xs1`, it runs to the same
    except that the result's staging buffer has the pieces `LC` written (all of it: the point's block of the result). -/
noncomputable def runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : ¬condL0 i) (hc2 : condL1 i)
    (x0 : Vec F S1x400x10000 .f32) (x1 : Vec F S10000x128 .f32) (x2 : Vec F S128x128 .f32) (x3 : Vec F S1x128 .f32) (x4 : Vec F S128x128 .f32) (x5 : Vec F S1x128 .f32) (xs0 : Vec F S10000x128 .bf16) (xs1 : Vec F S10000x128 .bf16) :
    { LC : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LC) ∗ owns (c : Thread nD τ) arg9 fullShare xs0 ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.Kernel.Body

end
-- ==== Proof.KernelBody.Pieces.lean ====
import proofs.«161590_g70901320122855_cont_9to1c4b_733_13_alg».proof.Proof.KernelBody.RunC
import Idealize.ShloMosaic.Lib.Pipeline.Value
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the three runs leave, read back

Each run's stores were found as pieces: a rectangle and the payload written through it. Here each is named: the first point
writes all of the first scratch with `x · W1` and rows `[0, 400)` of the second; a later first-layer point writes rows
`[400 t, 400 t + 400)` of the second scratch; a second-layer point writes all of the result's staging buffer. -/

theorem zeros2 : (![0, 0] : Fin 2 → ℕ) = fun _ => 0 := funext fun a => match a with | ⟨0, _⟩ => rfl | ⟨1, _⟩ => rfl
theorem zeros3 : (![0, 0, 0] : Fin 3 → ℕ) = fun _ => 0 := funext fun a => match a with | ⟨0, _⟩ => rfl | ⟨1, _⟩ => rfl | ⟨2, _⟩ => rfl

/-- A later first-layer point's one piece: the slice at the point's row offset, holding the slice's payload. -/
theorem runB_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs0 : Vec F S10000x128 .bf16) (xs1 : Vec F S10000x128 .bf16) :
    (runB c i arg2 harg2 arg3 harg3 arg4 harg4 arg5 harg5 arg6 harg6 arg7 harg7 arg8 harg8 arg9 harg9 arg10 harg10 hc0 hc1 hc2 x0 x1 x2 x3 x4 x5 x6 xs0 xs1).1
      = [⟨Rect.unit (s := S10000x128) (k0_off1 i) S400x128.size (k0_off1_inb i hc1), k0_pay2 x0 xs0 x3 x4⟩] := by
  unfold runB; dsimp only; sl_unfold_words
  simp only [View.readAt_eq_ld, harg2.read_unread, harg3.read_unread, harg4.read_unread, harg5.read_unread, harg6.read_unread, harg7.read_unread, harg9.read_unread, harg10.read_unread,
    View.ld_unit_zero (S := S1x400x10000) zeros3, View.ld_unit_zero (S := S10000x128) zeros2,
    View.ld_unit_zero (S := S1x128) zeros2, View.ld_unit_zero (S := S128x128) zeros2, View.ld_unit_zero (S := S400x128) zeros2]

/-- The second-layer point's one piece: all of the result's staging buffer, holding the block's payload. -/
theorem runC_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : ¬condL0 i) (hc2 : condL1 i)
    (x0 : Vec F S1x400x10000 .f32) (x1 : Vec F S10000x128 .f32) (x2 : Vec F S128x128 .f32) (x3 : Vec F S1x128 .f32) (x4 : Vec F S128x128 .f32) (x5 : Vec F S1x128 .f32) (xs0 : Vec F S10000x128 .bf16) (xs1 : Vec F S10000x128 .bf16) :
    (runC c i arg2 harg2 arg3 harg3 arg4 harg4 arg5 harg5 arg6 harg6 arg7 harg7 arg8 harg8 arg9 harg9 arg10 harg10 hc0 hc1 hc2 x0 x1 x2 x3 x4 x5 xs0 xs1).1
      = [⟨Rect.unit (s := S400x128) ![0, 0] S400x128.size inb_S400x128_S400x128_0_0, k0_pay3 x0 xs1 x5⟩] := by
  unfold runC; dsimp only; sl_unfold_words
  simp only [View.readAt_eq_ld, harg2.read_unread, harg3.read_unread, harg4.read_unread, harg5.read_unread, harg6.read_unread, harg7.read_unread, harg9.read_unread, harg10.read_unread,
    View.ld_unit_zero (S := S1x400x10000) zeros3, View.ld_unit_zero (S := S10000x128) zeros2,
    View.ld_unit_zero (S := S1x128) zeros2, View.ld_unit_zero (S := S128x128) zeros2, View.ld_unit_zero (S := S400x128) zeros2]

/-- The first point's piece in the first scratch: all of it, holding `x · W1`. -/
theorem runA_pieces0 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) :
    (runA c i arg2 harg2 arg3 harg3 arg4 harg4 arg5 harg5 arg6 harg6 arg7 harg7 arg8 harg8 arg9 harg9 arg10 harg10 hc0 hc1 hc2 x0 x1 x2 x3 x4 x5 x6 xs1).1
      = [⟨Rect.unit (s := S10000x128) ![0, 0] S10000x128.size inb_S10000x128_S10000x128_0_0, k0_pay1 x1 x2⟩] := by
  unfold runA; dsimp only; sl_unfold_words
  simp only [View.readAt_eq_ld, harg2.read_unread, harg3.read_unread, harg4.read_unread, harg5.read_unread, harg6.read_unread, harg7.read_unread, harg9.read_unread, harg10.read_unread,
    View.readCov_unit_zero (S := S10000x128) arg9.view zeros2, View.ld_unit_zero (S := S1x400x10000) zeros3, View.ld_unit_zero (S := S10000x128) zeros2,
    View.ld_unit_zero (S := S1x128) zeros2, View.ld_unit_zero (S := S128x128) zeros2, View.ld_unit_zero (S := S400x128) zeros2]

/-- The first point's piece in the second scratch: the slice at the point's row offset, computed from the `x · W1` just stored. -/
theorem runA_pieces1 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) :
    (runA c i arg2 harg2 arg3 harg3 arg4 harg4 arg5 harg5 arg6 harg6 arg7 harg7 arg8 harg8 arg9 harg9 arg10 harg10 hc0 hc1 hc2 x0 x1 x2 x3 x4 x5 x6 xs1).2.1
      = [⟨Rect.unit (s := S10000x128) (k0_off1 i) S400x128.size (k0_off1_inb i hc1), k0_pay2 x0 (k0_pay1 x1 x2) x3 x4⟩] := by
  unfold runA; dsimp only; sl_unfold_words
  simp only [View.readAt_eq_ld, harg2.read_unread, harg3.read_unread, harg4.read_unread, harg5.read_unread, harg6.read_unread, harg7.read_unread, harg9.read_unread, harg10.read_unread,
    View.readCov_unit_zero (S := S10000x128) arg9.view zeros2, View.ld_unit_zero (S := S1x400x10000) zeros3, View.ld_unit_zero (S := S10000x128) zeros2,
    View.ld_unit_zero (S := S1x128) zeros2, View.ld_unit_zero (S := S128x128) zeros2, View.ld_unit_zero (S := S400x128) zeros2]

end Cert.Kernel.Body

end
-- ==== Proof.KernelBody.Data.lean ====
import proofs.«161590_g70901320122855_cont_9to1c4b_733_13_alg».proof.Proof.KernelBody.Pieces
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the kernel keeps between grid points

The first scratch holds `x · W1` from the first point on. The second is filled 400 rows at a time during the first layer:
after first-layer point `t` its rows `[0, 400 (t + 1))` hold `hidden · W2`, the rest whatever the buffer held at entry. That is
stated as a property of the buffer's contents (`Filled`) rather than as one named array, because the unfilled rows are not
named by anything. Once all 25 slices are in, the contents are one array (`sup1`), which the second layer reads whole. -/

theorem N50 : cfg0.N = 50 := N_0

/-- The grid's first point. -/
abbrev t0 : Fin cfg0.N := ⟨0, by rw [N50]; omega⟩

/-- `x · W1`, as the first point computes it from its blocks of `x` and `W1` (the whole arrays). -/
def sup0 (c : Dev nD) : Vec F S10000x128 .bf16 := k0_pay1 (iblk m c 1 t0) (iblk m c 2 t0)

/-- The 400 rows of `hidden · W2` that first-layer point `t` computes from its block of the first adjacency matrix. -/
def slice (c : Dev nD) (t : Fin cfg0.N) : Vec F S400x128 .bf16 :=
  k0_pay2 (iblk m c 0 t) (sup0 m c) (iblk m c 3 t) (iblk m c 4 t)

/-- Entry `(o + y₀, y₁)` of a `[10000, 128]` array: where entry `y` of the 400-row slice at row offset `o` lies. -/
def rowIdx (o : ℕ) (ho : o + 400 ≤ 10000) (y : S400x128.Idx) : S10000x128.Idx :=
  ix2 (⟨o + (y 0).val, by have := idx2_lt0 y; omega⟩ : Fin 10000) (y 1 : Fin 128)

/-- Contents `d` of the second scratch have the slices of the first-layer points up to `n` in place. -/
def Filled (c : Dev nD) (n : ℕ) (d : Vec F S10000x128 .bf16) : Prop :=
  ∀ (t : Fin cfg0.N) (ht : t.val < 25), t.val ≤ n → ∀ y : S400x128.Idx,
    d (rowIdx (400 * t.val) (by omega) y) = slice m c t y

/-- `hidden · W2` whole: row `r` is row `r mod 400` of the slice of point `r / 400`. -/
def sup1 (c : Dev nD) : Vec F S10000x128 .bf16 := fun j =>
  slice m c ⟨(j 0).val / 400, by rw [N50]; have := idx2_lt0 j; omega⟩
    (ix2 (⟨(j 0).val % 400, Nat.mod_lt _ (by omega)⟩ : Fin 400) (j 1 : Fin 128))

/-- With every slice in place the second scratch holds `hidden · W2`. -/
theorem filled_all (c : Dev nD) (n : ℕ) (hn : 24 ≤ n) (d : Vec F S10000x128 .bf16) (h : Filled m c n d) : d = sup1 m c := by
  funext j
  have hj := idx2_lt0 j
  have key := h ⟨(j 0).val / 400, by rw [N50]; omega⟩ (by show (j 0).val / 400 < 25; omega) (by show (j 0).val / 400 ≤ n; omega)
    (ix2 (⟨(j 0).val % 400, Nat.mod_lt _ (by omega)⟩ : Fin 400) (j 1 : Fin 128))
  have e : rowIdx (400 * ((j 0).val / 400)) (by omega) (ix2 (⟨(j 0).val % 400, Nat.mod_lt _ (by omega)⟩ : Fin 400) (j 1 : Fin 128)) = j := by
    funext a; apply Fin.ext
    match a with
    | ⟨0, _⟩ => show 400 * ((j 0).val / 400) + (j 0).val % 400 = (j 0).val; omega
    | ⟨1, _⟩ => rfl
  exact (congrArg d e).symm.trans key

/-- Slices stay in place at the later points, which write none. -/
theorem Filled.mono (c : Dev nD) {n n' : ℕ} (d : Vec F S10000x128 .bf16) (h : Filled m c n d) (hn : 24 ≤ n) : Filled m c n' d :=
  fun t ht _ y => h t ht (by omega) y

/-- One more slice: contents with the slices up to `t - 1` in place, overwritten on rows `[400 t, 400 t + 400)` by point `t`'s
    slice, have the slices up to `t` in place — the new one where it was written, the earlier ones untouched above it. -/
theorem filled_step (c : Dev nD) (t : Fin cfg0.N) (ht : t.val < 25) {κ : Kind} {sp : Space} (v : View sig κ sp S10000x128 .bf16)
    (f : v.ty.Contents (Elt F)) (d : Vec F S10000x128 .bf16) (hf : v.read (Elt F) f = d) (hd : ∀ n, t.val = n + 1 → Filled m c n d)
    (off : Fin 2 → ℕ) (inb : ∀ a, off a + S400x128.size a ≤ S10000x128.size a) (hoff : off = ![400 * t.val, 0])
    (w : Vec F S400x128 .bf16) (hw : w = slice m c t) :
    Filled m c t.val (v.read (Elt F) (v.writes (Elt F) f [⟨Rect.unit (s := S10000x128) off S400x128.size inb, w⟩])) := by
  subst hw
  intro t' ht' hle y
  by_cases e : t'.val = t.val
  · obtain rfl : t' = t := Fin.ext e
    exact View.read_writes_cons_rows_of_mem v f inb _ [] _ y hoff rfl rfl
  · have hlt : t'.val < t.val := by omega
    obtain ⟨n, hn⟩ : ∃ n, t.val = n + 1 := ⟨t.val - 1, by omega⟩
    refine (View.read_writes_cons_rows_of_not_mem (W := 400) v f inb _ [] _ hoff rfl (Or.inl ?_)).trans ?_
    · show 400 * t'.val + (y 0).val < 400 * t.val
      have := idx2_lt0 y; omega
    · rw [View.writes_nil, hf]
      exact hd n hn t' ht' (by omega) y

/-- A store through the whole-shape rectangle at zero offsets leaves its payload. -/
theorem read_writes_whole2 {S : Shape} (hS : S.rank = 2) {e : EltTy} {κ : Kind} {sp : Space} (v : View sig κ sp S e) (f : v.ty.Contents (Elt F))
    (off : Fin S.rank → ℕ) (hz : off = fun _ => 0) (inb : ∀ a, off a + S.size a ≤ S.size a) (w : S.Idx → Elt F e) :
    v.read (Elt F) (v.writes (Elt F) f [⟨Rect.unit (s := S) off S.size inb, w⟩]) = w :=
  funext fun y => View.read_writes_cons_unit_of_mem v f inb w [] y y hz fun a => (Nat.zero_add _).symm

/-! ## The invariant between points -/

/-- Before the first point: whatever the launch hands over. After point `n`: the first scratch at `x · W1`, the second at
    some contents with the slices up to `n` in place, the generator register at some state. -/
def Phi (c : Dev nD) : (n : ℕ) → n ≤ cfg0.N → sProp 𝕄
  | 0, _ => Pipeline.ΦA spec0 c
  | n + 1, _ => iprop(iprop(owns (c : Thread nD τ) scr0 fullShare (sup0 m c) ∗ (∃ d, ⌜Filled m c n d⌝ ∗ owns (c : Thread nD τ) scr1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) scr0 fullShare (sup0 m c) ∗ (∃ d, ⌜Filled m c n d⌝ ∗ owns (c : Thread nD τ) scr1 fullShare d)) ∗ (∃ r, prngReg c r)) := rfl

theorem Phi_pos (c : Dev nD) (n : ℕ) (h : n ≤ cfg0.N) (hz : n ≠ 0) :
    Phi m c n h = iprop(iprop(owns (c : Thread nD τ) scr0 fullShare (sup0 m c) ∗ (∃ d, ⌜Filled m c (n - 1) d⌝ ∗ owns (c : Thread nD τ) scr1 fullShare d)) ∗ (∃ r, prngReg c r)) := by
  cases n with
  | zero => exact absurd rfl hz
  | succ n => rfl

/-! ## The proof data -/

/-- The block of the result second-layer point `t` computes from its block of the second adjacency matrix. -/
def outBlk (c : Dev nD) (t : Fin cfg0.N) : Vec F S400x128 .f32 :=
  k0_pay3 (iblk m c 0 t) (sup1 m c) (iblk m c 5 t)

/-- The arrays as the region finds them; after the body at a point each input's buffer at its block and the result's at
    the point's block of the result (consulted at second-layer points only: during the first layer that window is idle);
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.Kernel.Body

end
-- ==== Proof.KernelBody.Obligation.lean ====
import proofs.«161590_g70901320122855_cont_9to1c4b_733_13_alg».proof.Proof.KernelBody.Data

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point does to the kept buffers -/

/-- The first point leaves `x · W1` in the first scratch, whatever it held. -/
theorem stepA_scr0 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 x0 x1 x2 x3 x4 x5 x6 xs1).1) = k0_pay1 x1 x2 := by
  rw [runA_pieces0]; exact read_writes_whole2 rfl arg9.view f _ zeros2 _ _

/-- The first point puts its slice into the second scratch. -/
theorem stepA_scr1 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) (f : arg10.view.ty.Contents (Elt F))
    (hf : arg10.view.read (Elt F) f = xs1) (t : Fin cfg0.N) (ht : t.val < 25) (hoff : k0_off1 i = ![400 * t.val, 0])
    (hd : ∀ n, t.val = n + 1 → Filled m c n xs1) (hw : k0_pay2 x0 (k0_pay1 x1 x2) x3 x4 = slice m c t) :
    Filled m c t.val (arg10.view.read (Elt F) (arg10.view.writes (Elt F) f (runA c i arg2 harg2 arg3 harg3 arg4 harg4 arg5 harg5 arg6 harg6 arg7 harg7 arg8 harg8 arg9 harg9 arg10 harg10 hc0 hc1 hc2 x0 x1 x2 x3 x4 x5 x6 xs1).2.1)) := by
  rw [runA_pieces1]; exact filled_step m c t ht arg10.view f xs1 hf hd _ _ hoff _ hw

/-- A later first-layer point puts its slice into the second scratch. -/
theorem stepB_scr1 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs0 : Vec F S10000x128 .bf16) (xs1 : Vec F S10000x128 .bf16) (f : arg10.view.ty.Contents (Elt F))
    (hf : arg10.view.read (Elt F) f = xs1) (t : Fin cfg0.N) (ht : t.val < 25) (hoff : k0_off1 i = ![400 * t.val, 0])
    (hd : ∀ n, t.val = n + 1 → Filled m c n xs1) (hw : k0_pay2 x0 xs0 x3 x4 = slice m c t) :
    Filled m c t.val (arg10.view.read (Elt F) (arg10.view.writes (Elt F) f (runB c i arg2 harg2 arg3 harg3 arg4 harg4 arg5 harg5 arg6 harg6 arg7 harg7 arg8 harg8 arg9 harg9 arg10 harg10 hc0 hc1 hc2 x0 x1 x2 x3 x4 x5 x6 xs0 xs1).1)) := by
  rw [runB_pieces]; exact filled_step m c t ht arg10.view f xs1 hf hd _ _ hoff _ hw

/-- A second-layer point leaves its block of the result in the result's staging buffer, whatever it held. -/
theorem stepC_out (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : ¬condL0 i) (hc2 : condL1 i)
    (x0 : Vec F S1x400x10000 .f32) (x1 : Vec F S10000x128 .f32) (x2 : Vec F S128x128 .f32) (x3 : Vec F S1x128 .f32) (x4 : Vec F S128x128 .f32) (x5 : Vec F S1x128 .f32) (xs0 : Vec F S10000x128 .bf16) (xs1 : Vec F S10000x128 .bf16) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc0 hc1 hc2 x0 x1 x2 x3 x4 x5 xs0 xs1).1) = k0_pay3 x0 xs1 x5 := by
  rw [runC_pieces]; exact read_writes_whole2 rfl arg8.view f _ zeros2 _ _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point. The inputs' memrefs hold their blocks. During the first layer the result's window is idle and its
    buffer goes back as it came; the point's slice goes into the second scratch (at the first point also `x · W1` into the
    first). During the second layer both scratch buffers are only read — the second holds all of `hidden · W2` by then — and
    the result's buffer ends at the point's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) t.isLt from rfl, Phi_succ]
  have hN : t.val < 50 := lt_of_lt_of_eq t.isLt N50
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h1 : t.val < 25
  · rw [Dat.leavesExact_idle _ 6 t ((idle6_iff t).mpr h1) (Bool.eq_false_iff.mpr fun h => by have := (flush6_iff t).mp h; omega)]
    by_cases hz : t.val = 0
    · obtain rfl : t = t0 := Fin.ext hz
      rw [Phi_castSucc m c t0, Phi_zero m c _ _ rfl, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t0) _ _ _ _ _ _ _ _ _ _ _ _ _ _ _ _ _ _ ((condInit_iff t0).mpr rfl) ((condL0_iff t0).mpr h1) (fun h => by have := (condL1_iff t0).mp h; omega) (iblk m c 0 t0) (iblk m c 1 t0) (iblk m c 2 t0) (iblk m c 3 t0) (iblk m c 4 t0) (iblk m c 5 t0) ((dats m 0 c).before 6 t0 d6) ds1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, ⟨%fs0, HS0⟩, ⟨%fs1, %hfs1, HS1⟩⟩
      isplitl [HS0 HS1 Hg]
      · isplitl [HS0 HS1]
        · isplitl [HS0]
          · unfold owns; iexists _; isplitr
            swap; · iexact HS0
            ipureintro; exact stepA_scr0 c _ _ _ _ _ _ _ _ _ _ _ _ _ _ _ _ _ _ _ _ _ _ _ _ _ _ _ _ _ _ _
          · iexists _; isplitr
            swap
            · unfold owns; iexists _; isplitr
              swap; · iexact HS1
              ipureintro; rfl
            ipureintro
            exact stepA_scr1 m c _ _ _ _ _ _ _ _ _ _ _ _ _ _ _ _ _ _ _ _ _ _ _ _ _ _ _ _ _ _ _ hfs1 t0 h1 (off1_eq t0 h1) (fun n hn => absurd hn (by simp)) rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_castSucc m c t, Phi_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ _ _ _ _ (fun h => hz ((condInit_iff t).mp h)) ((condL0_iff t).mpr h1) (fun h => by have := (condL1_iff t).mp h; omega) (iblk m c 0 t) (iblk m c 1 t) (iblk m c 2 t) (iblk m c 3 t) (iblk m c 4 t) (iblk m c 5 t) ((dats m 0 c).before 6 t d6) (sup0 m c) ds1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%fs1, %hfs1, HS1⟩⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            exact stepB_scr1 m c _ _ _ _ _ _ _ _ _ _ _ _ _ _ _ _ _ _ _ _ _ _ _ _ _ _ _ _ _ _ _ _ hfs1 t h1 (off1_eq t h1) (fun n hn => (show t.val - 1 = n by omega) ▸ hds1) rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 25 ≤ t.val := by omega
    have hz : t.val ≠ 0 := by omega
    rw [show (dats m 0 c).leavesExact 6 t = owns (c : Thread nD τ) (ms6 t) fullShare ((dats m 0 c).after 6 t) from by
      unfold Dat.leavesExact; rw [Bool.eq_false_iff.mpr (fun h => h1 ((idle6_iff t).mp h))], after6]
    rw [Phi_castSucc m c t, Phi_pos m c _ _ hz]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : ds1 = sup1 m c := filled_all m c (t.val - 1) (by omega) ds1 hds1
    iapply ((runC c (grid0.coords t) _ _ _ _ _ _ _ _ _ _ _ _ _ _ _ _ _ _ (fun h => hz ((condInit_iff t).mp h)) (fun h => h1 ((condL0_iff t).mp h)) ((condL1_iff t).mpr h2) (iblk m c 0 t) (iblk m c 1 t) (iblk m c 2 t) (iblk m c 3 t) (iblk m c 4 t) (iblk m c 5 t) (sup0 m c) (sup1 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f6, H6⟩, HS0, HS1⟩
    isplitl [HS0 HS1 Hg]
    · isplitl [HS0 HS1]
      · isplitl [HS0]
        · iexact HS0
        · iexists _; isplitr
          · ipureintro; exact Filled.mono m c (sup1 m c) hds1 (by omega)
          iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact stepC_out c _ _ _ _ _ _ _ _ _ _ _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives that back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N50; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the
    library computes from the proof data — the inputs as the region found them, the result overwritten block by block by
    what the second-layer points left — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdealBody.Shared.lean ====
/-
  What the three runs of the kernel body share: which of the body's three conditionals a grid point takes (decided once over
  the 2 × 25 grid: the first is taken at point 0 only, the second at points 0 … 24 — the first layer —, the third at
  points 25 … 49 — the second layer), where the output window is idle and where it is written back (idle during the first
  layer, written back at every point of the second), the staging memrefs the pipeline hands the body at a point, and the
  two scratch buffers the kernel keeps between points.
-/
import proofs.«161590_g70901320122855_cont_9to1c4b_733_13_alg».proof.Proof.Gen.KernelIdeal.Frame
import proofs.«161590_g70901320122855_cont_9to1c4b_733_13_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's three conditionals over the grid -/

/-- "first layer and first row block": the condition under which the body computes `x · W1` into the first scratch. -/
abbrev condInit (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem condInit_iff : ∀ t : Fin cfg0.N, condInit (grid0.coords t) ↔ t.val = 0 :=
  (by decide +kernel : ∀ t : Fin grid0.N, condInit (grid0.coords t) ↔ t.val = 0)

/-- "first layer": the condition under which the body fills one slice of the second scratch. -/
abbrev condL0 (i : grid0.Coords) : Prop := k0_cond2 i = 1#1
/-- It holds at the points before point 25. -/
theorem condL0_iff : ∀ t : Fin cfg0.N, condL0 (grid0.coords t) ↔ t.val < 25 :=
  (by decide +kernel : ∀ t : Fin grid0.N, condL0 (grid0.coords t) ↔ t.val < 25)

/-- "second layer": the condition under which the body stores a block of the result. -/
abbrev condL1 (i : grid0.Coords) : Prop := k0_cond3 i = 1#1
/-- It holds from point 25 on. -/
theorem condL1_iff : ∀ t : Fin cfg0.N, condL1 (grid0.coords t) ↔ 25 ≤ t.val :=
  (by decide +kernel : ∀ t : Fin grid0.N, condL1 (grid0.coords t) ↔ 25 ≤ t.val)

/-- The row offset of the slice of the second scratch a first-layer point fills: 400 times the point's number. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the result's is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The result's window is idle exactly during the first layer. -/
theorem idle6_iff : ∀ t : Fin cfg0.N, cfg0.idle 6 (grid0.coords t) = true ↔ t.val < 25 :=
  (by decide +kernel : ∀ t : Fin grid0.N, cfg0.idle 6 (grid0.coords t) = true ↔ t.val < 25)
/-- The result's block is written back exactly at the points of the second layer. -/
theorem flush6_iff : ∀ t : Fin cfg0.N, (cfg0.win 6).flush t = true ↔ 25 ≤ t.val :=
  (by decide +kernel : ∀ t : Fin grid0.N, win0_6.flush t = true ↔ 25 ≤ t.val)
/-- The block of the result a second-layer point writes: block number "point − 25". -/
theorem index6_eq : ∀ t : Fin cfg0.N, 25 ≤ t.val → win0_6.index t = ![t.val - 25, 0] :=
  (by decide +kernel : ∀ t : Fin grid0.N, 25 ≤ t.val → win0_6.index t = ![t.val - 25, 0])

/-! ## The memrefs the body is called with -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The two scratch buffers: `x · W1`, and the second layer's input `hidden · W2`. -/
abbrev scr0 : Memref sig .tc .vmem S10000x128 .bf16 := Memref.whole cc0_scratch0
abbrev scr1 : Memref sig .tc .vmem S10000x128 .bf16 := Memref.whole cc0_scratch1

/-- What the launch hands the region besides the windows: both scratch buffers at some contents, and the generator register. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

end Cert.KernelIdeal.Body

end
-- ==== Proof.KernelIdealBody.RunB.lean ====
import proofs.«161590_g70901320122855_cont_9to1c4b_733_13_alg».proof.Proof.KernelIdealBody.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a first-layer point after the first (only the middle conditional taken): on whole memrefs holding the
    point's input blocks, the result's staging buffer at `x6`, the first scratch at `xs0` and the second at `xs1`, it runs to
    the same except that the second scratch has the pieces `LB` written over what it held — the one slice this point fills. -/
noncomputable def runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs0 : Vec F S10000x128 .bf16) (xs1 : Vec F S10000x128 .bf16) :
    { LB : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (∃ f, ⌜arg10.view.read (Elt F) f = xs1⌝ ∗ (arg10.view.loc (c : Thread nD τ) ↦[arg10.view.set]{fullShare} arg10.view.writes (Elt F) f LB))) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

end Cert.KernelIdeal.Body

end
-- ==== Proof.KernelIdealBody.RunA.lean ====
import proofs.«161590_g70901320122855_cont_9to1c4b_733_13_alg».proof.Proof.KernelIdealBody.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the first point (the first two conditionals taken): on whole memrefs holding the point's input blocks,
    the result's staging buffer at `x6`, the first scratch at anything and the second at `xs1`, it runs to the same except
    that the first scratch has the pieces `LA.1` written (all of it: `x · W1`) and the second the pieces `LA.2` written over
    what it held (its first slice). -/
noncomputable def runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) :
    (LA0 : List (View.Piece (Elt F) S10000x128 .bf16)) ×' (LA1 : List (View.Piece (Elt F) S10000x128 .bf16)) ×'
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LA0) ∗ (∃ f, ⌜arg10.view.read (Elt F) f = xs1⌝ ∗ (arg10.view.loc (c : Thread nD τ) ↦[arg10.view.set]{fullShare} arg10.view.writes (Elt F) f LA1))) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; isplitr; · ipureintro; exact harg10.read_unread _
    iexact HS1

end Cert.KernelIdeal.Body

end
-- ==== Proof.KernelIdealBody.RunC.lean ====
import proofs.«161590_g70901320122855_cont_9to1c4b_733_13_alg».proof.Proof.KernelIdealBody.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a second-layer point (only the last conditional taken): on whole memrefs holding the point's input
    blocks, the result's staging buffer at anything, the first scratch at `xs0` and the second at `xs1`, it runs to the same
    except that the result's staging buffer has the pieces `LC` written (all of it: the point's block of the result). -/
noncomputable def runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : ¬condL0 i) (hc2 : condL1 i)
    (x0 : Vec F S1x400x10000 .f32) (x1 : Vec F S10000x128 .f32) (x2 : Vec F S128x128 .f32) (x3 : Vec F S1x128 .f32) (x4 : Vec F S128x128 .f32) (x5 : Vec F S1x128 .f32) (xs0 : Vec F S10000x128 .bf16) (xs1 : Vec F S10000x128 .bf16) :
    { LC : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LC) ∗ owns (c : Thread nD τ) arg9 fullShare xs0 ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.KernelIdeal.Body

end
-- ==== Proof.KernelIdealBody.Pieces.lean ====
import proofs.«161590_g70901320122855_cont_9to1c4b_733_13_alg».proof.Proof.KernelIdealBody.RunC
import Idealize.ShloMosaic.Lib.Pipeline.Value
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the three runs leave, read back

Each run's stores were found as pieces: a rectangle and the payload written through it. Here each is named: the first point
writes all of the first scratch with `x · W1` and rows `[0, 400)` of the second; a later first-layer point writes rows
`[400 t, 400 t + 400)` of the second scratch; a second-layer point writes all of the result's staging buffer. -/

theorem zeros2 : (![0, 0] : Fin 2 → ℕ) = fun _ => 0 := funext fun a => match a with | ⟨0, _⟩ => rfl | ⟨1, _⟩ => rfl
theorem zeros3 : (![0, 0, 0] : Fin 3 → ℕ) = fun _ => 0 := funext fun a => match a with | ⟨0, _⟩ => rfl | ⟨1, _⟩ => rfl | ⟨2, _⟩ => rfl

/-- A later first-layer point's one piece: the slice at the point's row offset, holding the slice's payload. -/
theorem runB_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs0 : Vec F S10000x128 .bf16) (xs1 : Vec F S10000x128 .bf16) :
    (runB c i arg2 harg2 arg3 harg3 arg4 harg4 arg5 harg5 arg6 harg6 arg7 harg7 arg8 harg8 arg9 harg9 arg10 harg10 hc0 hc1 hc2 x0 x1 x2 x3 x4 x5 x6 xs0 xs1).1
      = [⟨Rect.unit (s := S10000x128) (k0_off1 i) S400x128.size (k0_off1_inb i hc1), k0_pay2 x0 xs0 x3 x4⟩] := by
  unfold runB; dsimp only; sl_unfold_words
  simp only [View.readAt_eq_ld, harg2.read_unread, harg3.read_unread, harg4.read_unread, harg5.read_unread, harg6.read_unread, harg7.read_unread, harg9.read_unread, harg10.read_unread,
    View.ld_unit_zero (S := S1x400x10000) zeros3, View.ld_unit_zero (S := S10000x128) zeros2,
    View.ld_unit_zero (S := S1x128) zeros2, View.ld_unit_zero (S := S128x128) zeros2, View.ld_unit_zero (S := S400x128) zeros2]

/-- The second-layer point's one piece: all of the result's staging buffer, holding the block's payload. -/
theorem runC_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : ¬condL0 i) (hc2 : condL1 i)
    (x0 : Vec F S1x400x10000 .f32) (x1 : Vec F S10000x128 .f32) (x2 : Vec F S128x128 .f32) (x3 : Vec F S1x128 .f32) (x4 : Vec F S128x128 .f32) (x5 : Vec F S1x128 .f32) (xs0 : Vec F S10000x128 .bf16) (xs1 : Vec F S10000x128 .bf16) :
    (runC c i arg2 harg2 arg3 harg3 arg4 harg4 arg5 harg5 arg6 harg6 arg7 harg7 arg8 harg8 arg9 harg9 arg10 harg10 hc0 hc1 hc2 x0 x1 x2 x3 x4 x5 xs0 xs1).1
      = [⟨Rect.unit (s := S400x128) ![0, 0] S400x128.size inb_S400x128_S400x128_0_0, k0_pay3 x0 xs1 x5⟩] := by
  unfold runC; dsimp only; sl_unfold_words
  simp only [View.readAt_eq_ld, harg2.read_unread, harg3.read_unread, harg4.read_unread, harg5.read_unread, harg6.read_unread, harg7.read_unread, harg9.read_unread, harg10.read_unread,
    View.ld_unit_zero (S := S1x400x10000) zeros3, View.ld_unit_zero (S := S10000x128) zeros2,
    View.ld_unit_zero (S := S1x128) zeros2, View.ld_unit_zero (S := S128x128) zeros2, View.ld_unit_zero (S := S400x128) zeros2]

/-- The first point's piece in the first scratch: all of it, holding `x · W1`. -/
theorem runA_pieces0 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) :
    (runA c i arg2 harg2 arg3 harg3 arg4 harg4 arg5 harg5 arg6 harg6 arg7 harg7 arg8 harg8 arg9 harg9 arg10 harg10 hc0 hc1 hc2 x0 x1 x2 x3 x4 x5 x6 xs1).1
      = [⟨Rect.unit (s := S10000x128) ![0, 0] S10000x128.size inb_S10000x128_S10000x128_0_0, k0_pay1 x1 x2⟩] := by
  unfold runA; dsimp only; sl_unfold_words
  simp only [View.readAt_eq_ld, harg2.read_unread, harg3.read_unread, harg4.read_unread, harg5.read_unread, harg6.read_unread, harg7.read_unread, harg9.read_unread, harg10.read_unread,
    View.readCov_unit_zero (S := S10000x128) arg9.view zeros2, View.ld_unit_zero (S := S1x400x10000) zeros3, View.ld_unit_zero (S := S10000x128) zeros2,
    View.ld_unit_zero (S := S1x128) zeros2, View.ld_unit_zero (S := S128x128) zeros2, View.ld_unit_zero (S := S400x128) zeros2]

/-- The first point's piece in the second scratch: the slice at the point's row offset, computed from the `x · W1` just stored. -/
theorem runA_pieces1 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) :
    (runA c i arg2 harg2 arg3 harg3 arg4 harg4 arg5 harg5 arg6 harg6 arg7 harg7 arg8 harg8 arg9 harg9 arg10 harg10 hc0 hc1 hc2 x0 x1 x2 x3 x4 x5 x6 xs1).2.1
      = [⟨Rect.unit (s := S10000x128) (k0_off1 i) S400x128.size (k0_off1_inb i hc1), k0_pay2 x0 (k0_pay1 x1 x2) x3 x4⟩] := by
  unfold runA; dsimp only; sl_unfold_words
  simp only [View.readAt_eq_ld, harg2.read_unread, harg3.read_unread, harg4.read_unread, harg5.read_unread, harg6.read_unread, harg7.read_unread, harg9.read_unread, harg10.read_unread,
    View.readCov_unit_zero (S := S10000x128) arg9.view zeros2, View.ld_unit_zero (S := S1x400x10000) zeros3, View.ld_unit_zero (S := S10000x128) zeros2,
    View.ld_unit_zero (S := S1x128) zeros2, View.ld_unit_zero (S := S128x128) zeros2, View.ld_unit_zero (S := S400x128) zeros2]

end Cert.KernelIdeal.Body

end
-- ==== Proof.KernelIdealBody.Data.lean ====
import proofs.«161590_g70901320122855_cont_9to1c4b_733_13_alg».proof.Proof.KernelIdealBody.Pieces
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the kernel keeps between grid points

The first scratch holds `x · W1` from the first point on. The second is filled 400 rows at a time during the first layer:
after first-layer point `t` its rows `[0, 400 (t + 1))` hold `hidden · W2`, the rest whatever the buffer held at entry. That is
stated as a property of the buffer's contents (`Filled`) rather than as one named array, because the unfilled rows are not
named by anything. Once all 25 slices are in, the contents are one array (`sup1`), which the second layer reads whole. -/

theorem N50 : cfg0.N = 50 := N_0

/-- The grid's first point. -/
abbrev t0 : Fin cfg0.N := ⟨0, by rw [N50]; omega⟩

/-- `x · W1`, as the first point computes it from its blocks of `x` and `W1` (the whole arrays). -/
def sup0 (c : Dev nD) : Vec F S10000x128 .bf16 := k0_pay1 (iblk m c 1 t0) (iblk m c 2 t0)

/-- The 400 rows of `hidden · W2` that first-layer point `t` computes from its block of the first adjacency matrix. -/
def slice (c : Dev nD) (t : Fin cfg0.N) : Vec F S400x128 .bf16 :=
  k0_pay2 (iblk m c 0 t) (sup0 m c) (iblk m c 3 t) (iblk m c 4 t)

/-- Entry `(o + y₀, y₁)` of a `[10000, 128]` array: where entry `y` of the 400-row slice at row offset `o` lies. -/
def rowIdx (o : ℕ) (ho : o + 400 ≤ 10000) (y : S400x128.Idx) : S10000x128.Idx :=
  ix2 (⟨o + (y 0).val, by have := idx2_lt0 y; omega⟩ : Fin 10000) (y 1 : Fin 128)

/-- Contents `d` of the second scratch have the slices of the first-layer points up to `n` in place. -/
def Filled (c : Dev nD) (n : ℕ) (d : Vec F S10000x128 .bf16) : Prop :=
  ∀ (t : Fin cfg0.N) (ht : t.val < 25), t.val ≤ n → ∀ y : S400x128.Idx,
    d (rowIdx (400 * t.val) (by omega) y) = slice m c t y

/-- `hidden · W2` whole: row `r` is row `r mod 400` of the slice of point `r / 400`. -/
def sup1 (c : Dev nD) : Vec F S10000x128 .bf16 := fun j =>
  slice m c ⟨(j 0).val / 400, by rw [N50]; have := idx2_lt0 j; omega⟩
    (ix2 (⟨(j 0).val % 400, Nat.mod_lt _ (by omega)⟩ : Fin 400) (j 1 : Fin 128))

/-- With every slice in place the second scratch holds `hidden · W2`. -/
theorem filled_all (c : Dev nD) (n : ℕ) (hn : 24 ≤ n) (d : Vec F S10000x128 .bf16) (h : Filled m c n d) : d = sup1 m c := by
  funext j
  have hj := idx2_lt0 j
  have key := h ⟨(j 0).val / 400, by rw [N50]; omega⟩ (by show (j 0).val / 400 < 25; omega) (by show (j 0).val / 400 ≤ n; omega)
    (ix2 (⟨(j 0).val % 400, Nat.mod_lt _ (by omega)⟩ : Fin 400) (j 1 : Fin 128))
  have e : rowIdx (400 * ((j 0).val / 400)) (by omega) (ix2 (⟨(j 0).val % 400, Nat.mod_lt _ (by omega)⟩ : Fin 400) (j 1 : Fin 128)) = j := by
    funext a; apply Fin.ext
    match a with
    | ⟨0, _⟩ => show 400 * ((j 0).val / 400) + (j 0).val % 400 = (j 0).val; omega
    | ⟨1, _⟩ => rfl
  exact (congrArg d e).symm.trans key

/-- Slices stay in place at the later points, which write none. -/
theorem Filled.mono (c : Dev nD) {n n' : ℕ} (d : Vec F S10000x128 .bf16) (h : Filled m c n d) (hn : 24 ≤ n) : Filled m c n' d :=
  fun t ht _ y => h t ht (by omega) y

/-- One more slice: contents with the slices up to `t - 1` in place, overwritten on rows `[400 t, 400 t + 400)` by point `t`'s
    slice, have the slices up to `t` in place — the new one where it was written, the earlier ones untouched above it. -/
theorem filled_step (c : Dev nD) (t : Fin cfg0.N) (ht : t.val < 25) {κ : Kind} {sp : Space} (v : View sig κ sp S10000x128 .bf16)
    (f : v.ty.Contents (Elt F)) (d : Vec F S10000x128 .bf16) (hf : v.read (Elt F) f = d) (hd : ∀ n, t.val = n + 1 → Filled m c n d)
    (off : Fin 2 → ℕ) (inb : ∀ a, off a + S400x128.size a ≤ S10000x128.size a) (hoff : off = ![400 * t.val, 0])
    (w : Vec F S400x128 .bf16) (hw : w = slice m c t) :
    Filled m c t.val (v.read (Elt F) (v.writes (Elt F) f [⟨Rect.unit (s := S10000x128) off S400x128.size inb, w⟩])) := by
  subst hw
  intro t' ht' hle y
  by_cases e : t'.val = t.val
  · obtain rfl : t' = t := Fin.ext e
    exact View.read_writes_cons_rows_of_mem v f inb _ [] _ y hoff rfl rfl
  · have hlt : t'.val < t.val := by omega
    obtain ⟨n, hn⟩ : ∃ n, t.val = n + 1 := ⟨t.val - 1, by omega⟩
    refine (View.read_writes_cons_rows_of_not_mem (W := 400) v f inb _ [] _ hoff rfl (Or.inl ?_)).trans ?_
    · show 400 * t'.val + (y 0).val < 400 * t.val
      have := idx2_lt0 y; omega
    · rw [View.writes_nil, hf]
      exact hd n hn t' ht' (by omega) y

/-- A store through the whole-shape rectangle at zero offsets leaves its payload. -/
theorem read_writes_whole2 {S : Shape} (hS : S.rank = 2) {e : EltTy} {κ : Kind} {sp : Space} (v : View sig κ sp S e) (f : v.ty.Contents (Elt F))
    (off : Fin S.rank → ℕ) (hz : off = fun _ => 0) (inb : ∀ a, off a + S.size a ≤ S.size a) (w : S.Idx → Elt F e) :
    v.read (Elt F) (v.writes (Elt F) f [⟨Rect.unit (s := S) off S.size inb, w⟩]) = w :=
  funext fun y => View.read_writes_cons_unit_of_mem v f inb w [] y y hz fun a => (Nat.zero_add _).symm

/-! ## The invariant between points -/

/-- Before the first point: whatever the launch hands over. After point `n`: the first scratch at `x · W1`, the second at
    some contents with the slices up to `n` in place, the generator register at some state. -/
def Phi (c : Dev nD) : (n : ℕ) → n ≤ cfg0.N → sProp 𝕄
  | 0, _ => Pipeline.ΦA spec0 c
  | n + 1, _ => iprop(iprop(owns (c : Thread nD τ) scr0 fullShare (sup0 m c) ∗ (∃ d, ⌜Filled m c n d⌝ ∗ owns (c : Thread nD τ) scr1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) scr0 fullShare (sup0 m c) ∗ (∃ d, ⌜Filled m c n d⌝ ∗ owns (c : Thread nD τ) scr1 fullShare d)) ∗ (∃ r, prngReg c r)) := rfl

theorem Phi_pos (c : Dev nD) (n : ℕ) (h : n ≤ cfg0.N) (hz : n ≠ 0) :
    Phi m c n h = iprop(iprop(owns (c : Thread nD τ) scr0 fullShare (sup0 m c) ∗ (∃ d, ⌜Filled m c (n - 1) d⌝ ∗ owns (c : Thread nD τ) scr1 fullShare d)) ∗ (∃ r, prngReg c r)) := by
  cases n with
  | zero => exact absurd rfl hz
  | succ n => rfl

/-! ## The proof data -/

/-- The block of the result second-layer point `t` computes from its block of the second adjacency matrix. -/
def outBlk (c : Dev nD) (t : Fin cfg0.N) : Vec F S400x128 .f32 :=
  k0_pay3 (iblk m c 0 t) (sup1 m c) (iblk m c 5 t)

/-- The arrays as the region finds them; after the body at a point each input's buffer at its block and the result's at
    the point's block of the result (consulted at second-layer points only: during the first layer that window is idle);
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.Body

end
-- ==== Proof.KernelIdealBody.Obligation.lean ====
import proofs.«161590_g70901320122855_cont_9to1c4b_733_13_alg».proof.Proof.KernelIdealBody.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point does to the kept buffers -/

/-- The first point leaves `x · W1` in the first scratch, whatever it held. -/
theorem stepA_scr0 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 x0 x1 x2 x3 x4 x5 x6 xs1).1) = k0_pay1 x1 x2 := by
  rw [runA_pieces0]; exact read_writes_whole2 rfl arg9.view f _ zeros2 _ _

/-- The first point puts its slice into the second scratch. -/
theorem stepA_scr1 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) (f : arg10.view.ty.Contents (Elt F))
    (hf : arg10.view.read (Elt F) f = xs1) (t : Fin cfg0.N) (ht : t.val < 25) (hoff : k0_off1 i = ![400 * t.val, 0])
    (hd : ∀ n, t.val = n + 1 → Filled m c n xs1) (hw : k0_pay2 x0 (k0_pay1 x1 x2) x3 x4 = slice m c t) :
    Filled m c t.val (arg10.view.read (Elt F) (arg10.view.writes (Elt F) f (runA c i arg2 harg2 arg3 harg3 arg4 harg4 arg5 harg5 arg6 harg6 arg7 harg7 arg8 harg8 arg9 harg9 arg10 harg10 hc0 hc1 hc2 x0 x1 x2 x3 x4 x5 x6 xs1).2.1)) := by
  rw [runA_pieces1]; exact filled_step m c t ht arg10.view f xs1 hf hd _ _ hoff _ hw

/-- A later first-layer point puts its slice into the second scratch. -/
theorem stepB_scr1 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : condL0 i) (hc2 : ¬condL1 i)
    (x0 : Vec F S1x400x10000 .f32) (x1 : Vec F S10000x128 .f32) (x2 : Vec F S128x128 .f32) (x3 : Vec F S1x128 .f32) (x4 : Vec F S128x128 .f32) (x5 : Vec F S1x128 .f32) (x6 : Vec F S400x128 .f32) (xs0 : Vec F S10000x128 .bf16) (xs1 : Vec F S10000x128 .bf16) (f : arg10.view.ty.Contents (Elt F))
    (hf : arg10.view.read (Elt F) f = xs1) (t : Fin cfg0.N) (ht : t.val < 25) (hoff : k0_off1 i = ![400 * t.val, 0])
    (hd : ∀ n, t.val = n + 1 → Filled m c n xs1) (hw : k0_pay2 x0 xs0 x3 x4 = slice m c t) :
    Filled m c t.val (arg10.view.read (Elt F) (arg10.view.writes (Elt F) f (runB c i arg2 harg2 arg3 harg3 arg4 harg4 arg5 harg5 arg6 harg6 arg7 harg7 arg8 harg8 arg9 harg9 arg10 harg10 hc0 hc1 hc2 x0 x1 x2 x3 x4 x5 x6 xs0 xs1).1)) := by
  rw [runB_pieces]; exact filled_step m c t ht arg10.view f xs1 hf hd _ _ hoff _ hw

/-- A second-layer point leaves its block of the result in the result's staging buffer, whatever it held. -/
theorem stepC_out (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬condInit i) (hc1 : ¬condL0 i) (hc2 : condL1 i)
    (x0 : Vec F S1x400x10000 .f32) (x1 : Vec F S10000x128 .f32) (x2 : Vec F S128x128 .f32) (x3 : Vec F S1x128 .f32) (x4 : Vec F S128x128 .f32) (x5 : Vec F S1x128 .f32) (xs0 : Vec F S10000x128 .bf16) (xs1 : Vec F S10000x128 .bf16) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc0 hc1 hc2 x0 x1 x2 x3 x4 x5 xs0 xs1).1) = k0_pay3 x0 xs1 x5 := by
  rw [runC_pieces]; exact read_writes_whole2 rfl arg8.view f _ zeros2 _ _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point. The inputs' memrefs hold their blocks. During the first layer the result's window is idle and its
    buffer goes back as it came; the point's slice goes into the second scratch (at the first point also `x · W1` into the
    first). During the second layer both scratch buffers are only read — the second holds all of `hidden · W2` by then — and
    the result's buffer ends at the point's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) t.isLt from rfl, Phi_succ]
  have hN : t.val < 50 := lt_of_lt_of_eq t.isLt N50
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h1 : t.val < 25
  · rw [Dat.leavesExact_idle _ 6 t ((idle6_iff t).mpr h1) (Bool.eq_false_iff.mpr fun h => by have := (flush6_iff t).mp h; omega)]
    by_cases hz : t.val = 0
    · obtain rfl : t = t0 := Fin.ext hz
      rw [Phi_castSucc m c t0, Phi_zero m c _ _ rfl, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t0) _ _ _ _ _ _ _ _ _ _ _ _ _ _ _ _ _ _ ((condInit_iff t0).mpr rfl) ((condL0_iff t0).mpr h1) (fun h => by have := (condL1_iff t0).mp h; omega) (iblk m c 0 t0) (iblk m c 1 t0) (iblk m c 2 t0) (iblk m c 3 t0) (iblk m c 4 t0) (iblk m c 5 t0) ((dats m 0 c).before 6 t0 d6) ds1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, ⟨%fs0, HS0⟩, ⟨%fs1, %hfs1, HS1⟩⟩
      isplitl [HS0 HS1 Hg]
      · isplitl [HS0 HS1]
        · isplitl [HS0]
          · unfold owns; iexists _; isplitr
            swap; · iexact HS0
            ipureintro; exact stepA_scr0 c _ _ _ _ _ _ _ _ _ _ _ _ _ _ _ _ _ _ _ _ _ _ _ _ _ _ _ _ _ _ _
          · iexists _; isplitr
            swap
            · unfold owns; iexists _; isplitr
              swap; · iexact HS1
              ipureintro; rfl
            ipureintro
            exact stepA_scr1 m c _ _ _ _ _ _ _ _ _ _ _ _ _ _ _ _ _ _ _ _ _ _ _ _ _ _ _ _ _ _ _ hfs1 t0 h1 (off1_eq t0 h1) (fun n hn => absurd hn (by simp)) rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_castSucc m c t, Phi_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ _ _ _ _ (fun h => hz ((condInit_iff t).mp h)) ((condL0_iff t).mpr h1) (fun h => by have := (condL1_iff t).mp h; omega) (iblk m c 0 t) (iblk m c 1 t) (iblk m c 2 t) (iblk m c 3 t) (iblk m c 4 t) (iblk m c 5 t) ((dats m 0 c).before 6 t d6) (sup0 m c) ds1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%fs1, %hfs1, HS1⟩⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            exact stepB_scr1 m c _ _ _ _ _ _ _ _ _ _ _ _ _ _ _ _ _ _ _ _ _ _ _ _ _ _ _ _ _ _ _ _ hfs1 t h1 (off1_eq t h1) (fun n hn => (show t.val - 1 = n by omega) ▸ hds1) rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 25 ≤ t.val := by omega
    have hz : t.val ≠ 0 := by omega
    rw [show (dats m 0 c).leavesExact 6 t = owns (c : Thread nD τ) (ms6 t) fullShare ((dats m 0 c).after 6 t) from by
      unfold Dat.leavesExact; rw [Bool.eq_false_iff.mpr (fun h => h1 ((idle6_iff t).mp h))], after6]
    rw [Phi_castSucc m c t, Phi_pos m c _ _ hz]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : ds1 = sup1 m c := filled_all m c (t.val - 1) (by omega) ds1 hds1
    iapply ((runC c (grid0.coords t) _ _ _ _ _ _ _ _ _ _ _ _ _ _ _ _ _ _ (fun h => hz ((condInit_iff t).mp h)) (fun h => h1 ((condL0_iff t).mp h)) ((condL1_iff t).mpr h2) (iblk m c 0 t) (iblk m c 1 t) (iblk m c 2 t) (iblk m c 3 t) (iblk m c 4 t) (iblk m c 5 t) (sup0 m c) (sup1 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f6, H6⟩, HS0, HS1⟩
    isplitl [HS0 HS1 Hg]
    · isplitl [HS0 HS1]
      · isplitl [HS0]
        · iexact HS0
        · iexists _; isplitr
          · ipureintro; exact Filled.mono m c (sup1 m c) hds1 (by omega)
          iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact stepC_out c _ _ _ _ _ _ _ _ _ _ _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives that back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N50; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the
    library computes from the proof data — the inputs as the region found them, the result overwritten block by block by
    what the second-layer points left — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdealBody.ResultArray.lean ====
import proofs.«161590_g70901320122855_cont_9to1c4b_733_13_alg».proof.Proof.KernelIdealBody.Obligation
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array, from its blocks

Second-layer point `t` writes block `t - 25` of the result back: rows `[400 (t - 25), 400 (t - 25) + 400)`, all 128 columns.
The 25 blocks tile the array, so it ends as the one array whose row `r` is row `r mod 400` of the block of point
`25 + r / 400`. -/

/-- The array the kernel leaves as its result. -/
def outArr (c : Dev nD) : S10000x128.Idx → Elt F .f32 := fun j =>
  outBlk m c ⟨25 + (j 0).val / 400, by rw [N50]; have := idx2_lt0 j; omega⟩
    (ix2 (⟨(j 0).val % 400, Nat.mod_lt _ (by omega)⟩ : Fin 400) (j 1 : Fin 128))

/-- Entry `(400 (t - 25) + y₀, y₁)` of that array is entry `y` of second-layer point `t`'s block. -/
theorem outArr_at (c : Dev nD) (t : Fin cfg0.N) (h2 : 25 ≤ t.val) (y : S400x128.Idx) (j : S10000x128.Idx)
    (h0 : (j 0).val = 400 * (t.val - 25) + (y 0).val) (h1 : (j 1).val = (y 1).val) : outArr m c j = outBlk m c t y := by
  have hy := idx2_lt0 y
  have hN : t.val < 50 := lt_of_lt_of_eq t.isLt N50
  have et : (⟨25 + (j 0).val / 400, by rw [N50]; have := idx2_lt0 j; omega⟩ : Fin cfg0.N) = t :=
    Fin.ext (by show 25 + (j 0).val / 400 = t.val; omega)
  have ey : (ix2 (⟨(j 0).val % 400, Nat.mod_lt _ (by omega)⟩ : Fin 400) (j 1 : Fin 128) : S400x128.Idx) = y := by
    funext a; apply Fin.ext
    match a with
    | ⟨0, _⟩ => show (j 0).val % 400 = (y 0).val; omega
    | ⟨1, _⟩ => exact h1
  exact congrArg₂ (outBlk m c) et ey

/-- What a second-layer point writes back is its block of that array. -/
theorem flushed6_eq (c : Dev nD) (t : Fin cfg0.N) (hf : (cfg0.win 6).flush t = true) :
    (dats m 0 c).flushed 6 t = ((cfg0.win 6).blk t).view.read (Elt F) (outArr m c) := by
  have h2 : 25 ≤ t.val := (flush6_iff t).mp hf
  have hx := index6_eq t h2
  have q0 : win0_6.index t (0 : Fin 2) = t.val - 25 := congrFun hx 0
  have q1 : win0_6.index t (1 : Fin 2) = 0 := congrFun hx 1
  show (cfg0.win 6).cut (grid0.coords t) ((dats m 0 c).after 6 t) = _
  rw [after6]
  funext y
  show outBlk m c t y = outArr m c (((cfg0.win 6).blk t).view.emb y)
  refine (outArr_at m c t h2 y _ ?_ ?_).symm
  · show win0_6.index t (0 : Fin 2) * 400 + 1 * (y 0).val = 400 * (t.val - 25) + (y 0).val
    rw [q0]; omega
  · show win0_6.index t (1 : Fin 2) * 128 + 1 * (y 1).val = (y 1).val
    rw [q1]; omega

/-- An index of the result array is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v2).slice (win0_6.rect t)).set ↔ _
  rw [View.set_slice_whole, Rect.mem_set_unit]
  exact Iff.rfl

/-- Every entry of the result array is in the block of the second-layer point `25 + row / 400`. -/
theorem cover6 (i : S10000x128.Idx) : ∃ t : Fin cfg0.N, (cfg0.win 6).flush t = true ∧ i ∈ ((cfg0.win 6).blk t).view.set := by
  have hi := idx2_lt0 i
  have hi1 := idx2_lt1 i
  have h2 : 25 ≤ 25 + (i 0).val / 400 := Nat.le_add_right _ _
  refine ⟨⟨25 + (i 0).val / 400, by rw [N50]; omega⟩, (flush6_iff _).mpr h2, ?_⟩
  rw [mem_blk6]
  have hx := index6_eq ⟨25 + (i 0).val / 400, by rw [N50]; omega⟩ h2
  have q0 := congrFun hx 0
  have q1 := congrFun hx 1
  intro a
  match a with
  | ⟨0, _⟩ =>
    show win0_6.index ⟨25 + (i 0).val / 400, _⟩ (0 : Fin 2) * 400 ≤ (i 0).val ∧ (i 0).val < win0_6.index ⟨25 + (i 0).val / 400, _⟩ (0 : Fin 2) * 400 + 400
    rw [q0]
    show (25 + (i 0).val / 400 - 25) * 400 ≤ (i 0).val ∧ (i 0).val < (25 + (i 0).val / 400 - 25) * 400 + 400
    omega
  | ⟨1, _⟩ =>
    show win0_6.index ⟨25 + (i 0).val / 400, _⟩ (1 : Fin 2) * 128 ≤ (i 1).val ∧ (i 1).val < win0_6.index ⟨25 + (i 0).val / 400, _⟩ (1 : Fin 2) * 128 + 128
    rw [q1]
    show 0 * 128 ≤ (i 1).val ∧ (i 1).val < 0 * 128 + 128
    omega

/-- The result array after the run. -/
theorem final6 (c : Dev nD) : (dats m 0 c).arrAt 6 cfg0.N = outArr m c :=
  (dats m 0 c).arrAt_eq_of_cover 6 (outArr m c) (fun t hf => flushed6_eq m c t hf) cover6

/-- The run, with the result array named and the arguments unchanged. -/
theorem run_value : θ_run defs (onTc (τ := τ) (main (F := F))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Body

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.KernelPayloads.lean ====
/-
  The three values the kernel's body stores, read entry by entry at the ideal values.

  Every narrowing of the number format is the identity on extended reals, and so is a cast of an array to its own shape.
  A matrix product into a zero accumulator of `[M, K]` with `[K, N]` is, at `(r, c)`, the sum over `k` of the left operand
  at `(r, k)` times the right operand at `(k, c)`. A block `[1, 400, 10000]` of an adjacency matrix with its leading axis
  dropped reads, at `(r, k)`, the block at `(0, r, k)`. A bias row `[1, 128]` repeated down 400 rows reads, at `(r, c)`, the
  row at `c`. The nonlinearity is the maximum with the zero word, which denotes the real number zero.

  So the first stored value is `x · W1`; the second, for one block of 400 rows of the first adjacency matrix, is
  `max (block · s + b1, 0) · W2` where `s` is the array the first value was stored into; the third, for one block of 400 rows
  of the second adjacency matrix, is `block · s' + b2` where `s'` is the array the second values were stored into.
-/
import proofs.«161590_g70901320122855_cont_9to1c4b_733_13_alg».proof.Proof.Gen.KernelIdeal.Skeleton
import proofs.«161590_g70901320122855_cont_9to1c4b_733_13_alg».proof.Proof.LibDenseRows

noncomputable section

namespace Cert.KernelIdeal.Payloads

open Cert.KernelIdeal Cert.KernelIdeal.Gen
open Idealize.ShloMosaic Idealize.ShloMosaic.ValueIdx
open scoped BigOperators

/-- A block of 400 rows of an adjacency matrix, its leading axis dropped, times an array `[10000, 128]`, at row `r` of the
    block and feature `c`. -/
theorem blockRows_at (x0 : FVec Ideal S1x400x10000 .f32) (s : FVec Ideal S10000x128 .bf16)
    (hc : S1x400x10000.ShapeCasts S400x10000) (hlt : FTy.bits .bf16 < FTy.bits .f32) (r : Fin 400) (c : Fin 128) :
    matmul dot_S400x10000_S10000x128_S400x128_1_0_0_1_n_n none
        (truncf .bf16 (shapeCast S400x10000 x0 hc) hlt : FVec Ideal S400x10000 .bf16) s
        (constant (F := Ideal) S400x128 .f32 0x00000000#32) (ix2 r c)
      = ∑ k : Fin 10000, x0 (ix3 (0 : Fin 1) r k) * s (ix2 k c) := by
  refine (Cert.DenseRows.matmul_zero_plain_apply dot_S400x10000_S10000x128_S400x128_1_0_0_1_n_n rfl rfl rfl rfl
    (fun _ _ => rfl) (fun _ _ => rfl) _ _ r c).trans ?_
  refine Finset.sum_congr rfl fun k _ => ?_
  exact congrArg (· * s (ix2 k c)) (shapeCast_1ab_ab_apply x0 hc r k)

/-- A bias row `[1, 128]`, cast to its own shape and repeated down 400 rows, at `(r, c)`. -/
theorem biasRow_at (b : FVec Ideal S1x128 .f32) (h1 : S1x128.ShapeCasts S1x128) (h2 : S1x128.Broadcasts S400x128)
    (r : Fin 400) (c : Fin 128) :
    broadcastTo S400x128 (shapeCast S1x128 b h1) h2 (ix2 r c) = b (ix2 (0 : Fin 1) c) :=
  (broadcastTo_1b_ab_apply _ h2 r c).trans (congrFun (shapeCast_self b h1) _)

/-- The first stored value is `x · W1`. -/
theorem pay1_at (x1 : Vec Ideal S10000x128 .f32) (x2 : Vec Ideal S128x128 .f32) (i : Fin 10000) (j : Fin 128) :
    Gen.k0_pay1 (F := Ideal) x1 x2 (ix2 i j) = ∑ p : Fin 128, x1 (ix2 i p) * x2 (ix2 p j) := by
  unfold Gen.k0_pay1
  refine (congrFun (shapeCast_self _ _) _).trans ?_
  exact Cert.DenseRows.matmul_zero_plain_apply dot_S10000x128_S128x128_S10000x128_1_0_0_1_n_n rfl rfl rfl rfl
    (fun _ _ => rfl) (fun _ _ => rfl) _ _ i j

/-- The second stored value, for one block of 400 rows of the first adjacency matrix: `max (block · s0 + b1, 0) · W2`. -/
theorem pay2_at (x0 : Vec Ideal S1x400x10000 .f32) (s0 : Vec Ideal S10000x128 .bf16) (x3 : Vec Ideal S1x128 .f32)
    (x4 : Vec Ideal S128x128 .f32) (r : Fin 400) (c : Fin 128) :
    Gen.k0_pay2 (F := Ideal) x0 s0 x3 x4 (ix2 r c)
      = ∑ j : Fin 128, max (∑ i : Fin 10000, x0 (ix3 (0 : Fin 1) r i) * s0 (ix2 i j) + x3 (ix2 (0 : Fin 1) j)) 0
          * x4 (ix2 j c) := by
  unfold Gen.k0_pay2
  refine (congrFun (shapeCast_self _ _) _).trans ?_
  refine (Cert.DenseRows.matmul_zero_plain_apply dot_S400x128_S128x128_S400x128_1_0_0_1_n_n rfl rfl rfl rfl
    (fun _ _ => rfl) (fun _ _ => rfl) _ _ r c).trans ?_
  refine Finset.sum_congr rfl fun j _ => ?_
  refine congrArg (· * x4 (ix2 j c)) ?_
  refine (maximumf_apply _ _ _).trans ?_
  refine congrArg₂ max ?_ ?_
  · exact (addf_apply _ _ _).trans (congrArg₂ (· + ·) (blockRows_at x0 s0 _ _ r j) (biasRow_at x3 _ _ r j))
  · exact Ideal.ofBits_zero_f32

/-- The third stored value, for one block of 400 rows of the second adjacency matrix: `block · s1 + b2`. -/
theorem pay3_at (x0 : Vec Ideal S1x400x10000 .f32) (s1 : Vec Ideal S10000x128 .bf16) (x5 : Vec Ideal S1x128 .f32)
    (r : Fin 400) (c : Fin 128) :
    Gen.k0_pay3 (F := Ideal) x0 s1 x5 (ix2 r c)
      = ∑ k : Fin 10000, x0 (ix3 (0 : Fin 1) r k) * s1 (ix2 k c) + x5 (ix2 (0 : Fin 1) c) := by
  unfold Gen.k0_pay3
  exact (addf_apply _ _ _).trans (congrArg₂ (· + ·) (blockRows_at x0 s1 _ _ r c) (biasRow_at x5 _ _ r c))

end Cert.KernelIdeal.Payloads

end
-- ==== Proof.KernelBlocks.lean ====
/-
  What each input block of the kernel is, as entries of the argument arrays.

  The grid has 2 × 25 points; point `t` has coordinates `(t / 25, t % 25)`. The adjacency array `[2, 10000, 10000]` is read
  in blocks `[1, 400, 10000]`: at point `t` the block is rows `400 · (t % 25) … 400 · (t % 25) + 399` of matrix `t / 25`, because an
  element of a block sits in the array, on each axis, at the block index times the block's size plus its own coordinate.
  The features and the two weight matrices are each one block, the whole array, at every point. The two biases reach the
  kernel as rows `[1, 128]`, each the bias vector `[128]` with a leading axis of extent one added before the kernel starts.
-/
import proofs.«161590_g70901320122855_cont_9to1c4b_733_13_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen
open Idealize.ShloMosaic Idealize.ShloMosaic.ValueIdx Idealize.ShloMosaic.TcCoe Idealize.SL.Sem

variable {F : FTy → Type} [FloatOps F]
variable (m : (ℓ : Loc nD τ sig) → Buf (Elt F) ℓ)

/-! ## The block indices over the grid -/

/-- The adjacency window's block index at point `t` is `(t / 25, t % 25, 0)`. -/
theorem adj_index : ∀ t : Fin cfg0.N, win0_0.index t (0 : Fin 3) = t.val / 25 ∧ win0_0.index t (1 : Fin 3) = t.val % 25
    ∧ win0_0.index t (2 : Fin 3) = 0 :=
  (by decide +kernel : ∀ t : Fin grid0.N, _)

/-- Every other input window's block index is zero on both axes at every point. -/
theorem whole_index : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-! ## The whole-array windows -/

/-- The feature window's block is the whole feature array. -/
theorem blk1 (c : Dev nD) (t : Fin cfg0.N) (i : Fin 10000) (p : Fin 128) :
    (iblk m c 1 t : Vec F S10000x128 .f32) (ix2 i p)
      = ((m ((c : Thread nD τ).loc main_arg0)) : S10000x128.Idx → Elt F .f32) (ix2 i p) := by
  obtain ⟨⟨h0, h1⟩, -⟩ := whole_index t
  unfold iblk
  rw [View.read_apply]
  show V m c main_arg0 _ = _
  rw [V_main_arg0 m c]
  refine congrArg _ (funext fun a => Fin.ext ?_)
  match a with
  | ⟨0, _⟩ => show win0_1.index t (0 : Fin 2) * 10000 + 1 * i.val = i.val; omega
  | ⟨1, _⟩ => show win0_1.index t (1 : Fin 2) * 128 + 1 * p.val = p.val; omega

/-- The first weight window's block is the whole first weight matrix. -/
theorem blk2 (c : Dev nD) (t : Fin cfg0.N) (p : Fin 128) (j : Fin 128) :
    (iblk m c 2 t : Vec F S128x128 .f32) (ix2 p j)
      = ((m ((c : Thread nD τ).loc main_arg2)) : S128x128.Idx → Elt F .f32) (ix2 p j) := by
  obtain ⟨-, ⟨h0, h1⟩, -⟩ := whole_index t
  unfold iblk
  rw [View.read_apply]
  show V m c main_arg2 _ = _
  rw [V_main_arg2 m c]
  refine congrArg _ (funext fun a => Fin.ext ?_)
  match a with
  | ⟨0, _⟩ => show win0_2.index t (0 : Fin 2) * 128 + 1 * p.val = p.val; omega
  | ⟨1, _⟩ => show win0_2.index t (1 : Fin 2) * 128 + 1 * j.val = j.val; omega

/-- The second weight window's block is the whole second weight matrix. -/
theorem blk4 (c : Dev nD) (t : Fin cfg0.N) (j : Fin 128) (q : Fin 128) :
    (iblk m c 4 t : Vec F S128x128 .f32) (ix2 j q)
      = ((m ((c : Thread nD τ).loc main_arg4)) : S128x128.Idx → Elt F .f32) (ix2 j q) := by
  obtain ⟨-, -, -, ⟨h0, h1⟩, -⟩ := whole_index t
  unfold iblk
  rw [View.read_apply]
  show V m c main_arg4 _ = _
  rw [V_main_arg4 m c]
  refine congrArg _ (funext fun a => Fin.ext ?_)
  match a with
  | ⟨0, _⟩ => show win0_4.index t (0 : Fin 2) * 128 + 1 * j.val = j.val; omega
  | ⟨1, _⟩ => show win0_4.index t (1 : Fin 2) * 128 + 1 * q.val = q.val; omega

/-! ## The bias rows -/

/-- The array the first bias window reads is the first bias vector with a leading axis of extent one added. -/
theorem bias1_row (c : Dev nD) :
    (V m c main_v0 : S1x128.Idx → Elt F .f32)
      = shapeCast S1x128 ((m ((c : Thread nD τ).loc main_arg3)) : S128.Idx → Elt F .f32) shapeCasts_S128_S1x128 := by
  dsimp only [V, hostOps0]
  after_results
  rfl

/-- The first bias window's block, at `(0, j)`, is the first bias at `j`. -/
theorem blk3 (c : Dev nD) (t : Fin cfg0.N) (j : Fin 128) :
    (iblk m c 3 t : Vec F S1x128 .f32) (ix2 (0 : Fin 1) j)
      = ((m ((c : Thread nD τ).loc main_arg3)) : S128.Idx → Elt F .f32) (ix1 j) := by
  obtain ⟨-, -, ⟨h0, h1⟩, -⟩ := whole_index t
  have hread : (iblk m c 3 t : Vec F S1x128 .f32) (ix2 (0 : Fin 1) j)
      = (V m c main_v0 : S1x128.Idx → Elt F .f32) (ix2 (0 : Fin 1) j) := by
    unfold iblk
    rw [View.read_apply]
    show V m c main_v0 _ = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * j.val = j.val; omega
  exact hread.trans ((congrFun (bias1_row m c) _).trans (shapeCast_a_1a_apply _ _ (0 : Fin 1) j))

/-- The array the second bias window reads is the second bias vector with a leading axis of extent one added. -/
theorem bias2_row (c : Dev nD) :
    (V m c main_v1 : S1x128.Idx → Elt F .f32)
      = shapeCast S1x128 ((m ((c : Thread nD τ).loc main_arg5)) : S128.Idx → Elt F .f32) shapeCasts_S128_S1x128 := by
  dsimp only [V, hostOps0]
  after_results
  rfl

/-- The second bias window's block, at `(0, j)`, is the second bias at `j`. -/
theorem blk5 (c : Dev nD) (t : Fin cfg0.N) (j : Fin 128) :
    (iblk m c 5 t : Vec F S1x128 .f32) (ix2 (0 : Fin 1) j)
      = ((m ((c : Thread nD τ).loc main_arg5)) : S128.Idx → Elt F .f32) (ix1 j) := by
  obtain ⟨-, -, -, -, h0, h1⟩ := whole_index t
  have hread : (iblk m c 5 t : Vec F S1x128 .f32) (ix2 (0 : Fin 1) j)
      = (V m c main_v1 : S1x128.Idx → Elt F .f32) (ix2 (0 : Fin 1) j) := by
    unfold iblk
    rw [View.read_apply]
    show V m c main_v1 _ = _
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * j.val = j.val; omega
  exact hread.trans ((congrFun (bias2_row m c) _).trans (shapeCast_a_1a_apply _ _ (0 : Fin 1) j))

/-! ## The adjacency blocks -/

/-- The adjacency window's block at point `t`, at `(0, r, k)`, is the entry `(t / 25, 400 · (t % 25) + r, k)` of the adjacency
    array: stated for any array index `i` with those coordinates. -/
theorem blk0_at (c : Dev nD) (t : Fin cfg0.N) (r : Fin 400) (k : Fin 10000) (i : S2x10000x10000.Idx)
    (hi0 : (i 0).val = t.val / 25) (hi1 : (i 1).val = 400 * (t.val % 25) + r.val) (hi2 : (i 2).val = k.val) :
    (iblk m c 0 t : Vec F S1x400x10000 .f32) (ix3 (0 : Fin 1) r k)
      = ((m ((c : Thread nD τ).loc main_arg1)) : S2x10000x10000.Idx → Elt F .f32) i := by
  obtain ⟨h0, h1, h2⟩ := adj_index t
  unfold iblk
  rw [View.read_apply]
  show V m c main_arg1 _ = _
  rw [V_main_arg1 m c]
  refine congrArg _ (funext fun a => Fin.ext ?_)
  match a with
  | ⟨0, _⟩ => show win0_0.index t (0 : Fin 3) * 1 + 1 * 0 = (i 0).val; omega
  | ⟨1, _⟩ => show win0_0.index t (1 : Fin 3) * 400 + 1 * r.val = (i 1).val; omega
  | ⟨2, _⟩ => show win0_0.index t (2 : Fin 3) * 10000 + 1 * k.val = (i 2).val; omega

/-- At the first 25 points the block is rows `400 t … 400 t + 399` of the first adjacency matrix. -/
theorem blk0_l0 (c : Dev nD) (t : Fin cfg0.N) (h : t.val < 25) (r : Fin 400) (k : Fin 10000) :
    (iblk m c 0 t : Vec F S1x400x10000 .f32) (ix3 (0 : Fin 1) r k)
      = ((m ((c : Thread nD τ).loc main_arg1)) : S2x10000x10000.Idx → Elt F .f32)
          (ix3 (0 : Fin 2) ⟨400 * t.val + r.val, by have := r.isLt; omega⟩ k) := by
  have hr := r.isLt
  refine blk0_at m c t r k _ ?_ ?_ rfl
  · show (0 : Fin 2).val = t.val / 25; show 0 = t.val / 25; omega
  · show 400 * t.val + r.val = 400 * (t.val % 25) + r.val; omega

/-- At the last 25 points the block is rows `400 (t − 25) … 400 (t − 25) + 399` of the second adjacency matrix. -/
theorem blk0_l1 (c : Dev nD) (t : Fin cfg0.N) (h : 25 ≤ t.val) (r : Fin 400) (k : Fin 10000) :
    (iblk m c 0 t : Vec F S1x400x10000 .f32) (ix3 (0 : Fin 1) r k)
      = ((m ((c : Thread nD τ).loc main_arg1)) : S2x10000x10000.Idx → Elt F .f32)
          (ix3 (1 : Fin 2) ⟨400 * (t.val - 25) + r.val, by
            have := r.isLt; have := t.isLt; have hN : cfg0.N = 50 := N_0; omega⟩ k) := by
  have hr := r.isLt
  have ht := t.isLt
  have hN : cfg0.N = 50 := N_0
  refine blk0_at m c t r k _ ?_ ?_ rfl
  · show (1 : Fin 2).val = t.val / 25; show 1 = t.val / 25; omega
  · show 400 * (t.val - 25) + r.val = 400 * (t.val % 25) + r.val; omega

end Cert.KernelIdeal.Blocks

end
-- ==== Proof.GcnSpec.lean ====
/-
  The two-layer graph convolution this certificate is about, as ONE function of the argument arrays, entry by entry,
  over the extended reals.

  With node features `x : [10000, 128]`, two dense adjacency matrices `adjs : [2, 10000, 10000]`, weights `W1, W2 : [128, 128]`
  and biases `b1, b2 : [128]`:

    support0 = x · W1
    hidden   = max (adjs[0] · support0 + b1, 0)        (the bias laid along every row)
    support1 = hidden · W2
    result   = adjs[1] · support1 + b2

  Every matrix product is the plain sum over the contracted coordinate. Nothing here needs the entries to be finite: both
  programs compute exactly these sums in exactly this grouping, the kernel 400 rows of each adjacency matrix at a time.
-/
import Idealize.ShloMosaic.PureOps.Ideal
import Idealize.ShloMosaic.Lib.ValueIdx

noncomputable section

namespace Cert.GcnSpec

open Idealize.ShloMosaic Idealize.ShloMosaic.ValueIdx
open scoped BigOperators

/-- Node features `[10000, 128]`, and every `[10000, 128]` intermediate. -/
abbrev Feat : Type := (⟨2, ![10000, 128]⟩ : Shape).Idx → EReal
/-- The two adjacency matrices `[2, 10000, 10000]`. -/
abbrev Adjs : Type := (⟨3, ![2, 10000, 10000]⟩ : Shape).Idx → EReal
/-- A weight matrix `[128, 128]`. -/
abbrev Weight : Type := (⟨2, ![128, 128]⟩ : Shape).Idx → EReal
/-- A bias vector `[128]`. -/
abbrev Bias : Type := (⟨1, ![128]⟩ : Shape).Idx → EReal

/-- `x · W1` at node `i`, feature `j`. -/
def support0 (x : Feat) (W1 : Weight) (i : Fin 10000) (j : Fin 128) : EReal :=
  ∑ p : Fin 128, x (ix2 i p) * W1 (ix2 p j)

/-- The first layer after its nonlinearity: `max (adjs[0] · support0 + b1, 0)` at node `k`, feature `j`. -/
def hidden (x : Feat) (adjs : Adjs) (W1 : Weight) (b1 : Bias) (k : Fin 10000) (j : Fin 128) : EReal :=
  max (∑ i : Fin 10000, adjs (ix3 (0 : Fin 2) k i) * support0 x W1 i j + b1 (ix1 j)) 0

/-- `hidden · W2` at node `k`, feature `c`. -/
def support1 (x : Feat) (adjs : Adjs) (W1 : Weight) (b1 : Bias) (W2 : Weight) (k : Fin 10000) (c : Fin 128) : EReal :=
  ∑ j : Fin 128, hidden x adjs W1 b1 k j * W2 (ix2 j c)

/-- The network's result `adjs[1] · support1 + b2` at node `r`, feature `c`. -/
def resultAt (x : Feat) (adjs : Adjs) (W1 : Weight) (b1 : Bias) (W2 : Weight) (b2 : Bias) (r : Fin 10000) (c : Fin 128) : EReal :=
  ∑ k : Fin 10000, adjs (ix3 (1 : Fin 2) r k) * support1 x adjs W1 b1 W2 k c + b2 (ix1 c)

/-- The result as an array `[10000, 128]`. -/
def result (x : Feat) (adjs : Adjs) (W1 : Weight) (b1 : Bias) (W2 : Weight) (b2 : Bias) : Feat :=
  fun i => resultAt x adjs W1 b1 W2 b2 (i 0) (i 1)

theorem result_ix2 (x : Feat) (adjs : Adjs) (W1 : Weight) (b1 : Bias) (W2 : Weight) (b2 : Bias) (r : Fin 10000) (c : Fin 128) :
    result x adjs W1 b1 W2 b2 (ix2 r c) = resultAt x adjs W1 b1 W2 b2 r c := rfl

end Cert.GcnSpec

end
-- ==== Proof.KernelIdealBody.Bridge.lean ====
/-
  The values the kernel keeps between grid points, and the blocks of the result it writes, are the specification's.

  Every input block is made of entries of the argument arrays: the feature and weight blocks are the whole arrays, the bias
  rows are the bias vectors, and the adjacency block at a point is 400 consecutive rows of one of the two adjacency matrices.
  Substituting those entries into the three stored values, read as plain sums, gives the specification's intermediates of the
  same names:

    * the first kept array is `x · W1` (`support0`);
    * the slice a first-layer point `t` computes is rows `400 t … 400 t + 399` of `hidden · W2` (`support1`), and so the second
      kept array, which puts row `k` at row `k mod 400` of the slice of point `k / 400`, is `hidden · W2` whole;
    * the block a second-layer point `t` writes is rows `400 (t − 25) … 400 (t − 25) + 399` of the network's result.

  The sums are matched term by term, in the same order and grouping; nothing is asked of the entries.
-/
import proofs.«161590_g70901320122855_cont_9to1c4b_733_13_alg».proof.Proof.KernelIdealBody.Data
import proofs.«161590_g70901320122855_cont_9to1c4b_733_13_alg».proof.Proof.KernelPayloads
import proofs.«161590_g70901320122855_cont_9to1c4b_733_13_alg».proof.Proof.KernelBlocks
import proofs.«161590_g70901320122855_cont_9to1c4b_733_13_alg».proof.Proof.GcnSpec

noncomputable section

namespace Cert.KernelIdeal.Bridge

open Cert.KernelIdeal Cert.KernelIdeal.Gen
open Idealize.ShloMosaic Idealize.ShloMosaic.ValueIdx Idealize.ShloMosaic.TcCoe Idealize.SL.Sem
open scoped BigOperators

variable (m : (ℓ : Loc nD τ sig) → Buf (Elt Ideal) ℓ) (c : Dev nD)

/-! The six argument arrays as launched: features, adjacency matrices, first weights and bias, second weights and bias. -/

set_option quotPrecheck false in
local notation "argX" => (m ((c : Thread nD τ).loc main_arg0) : S10000x128.Idx → Elt Ideal .f32)
set_option quotPrecheck false in
local notation "argA" => (m ((c : Thread nD τ).loc main_arg1) : S2x10000x10000.Idx → Elt Ideal .f32)
set_option quotPrecheck false in
local notation "argW1" => (m ((c : Thread nD τ).loc main_arg2) : S128x128.Idx → Elt Ideal .f32)
set_option quotPrecheck false in
local notation "argB1" => (m ((c : Thread nD τ).loc main_arg3) : S128.Idx → Elt Ideal .f32)
set_option quotPrecheck false in
local notation "argW2" => (m ((c : Thread nD τ).loc main_arg4) : S128x128.Idx → Elt Ideal .f32)
set_option quotPrecheck false in
local notation "argB2" => (m ((c : Thread nD τ).loc main_arg5) : S128.Idx → Elt Ideal .f32)

/-- The first kept array is `x · W1`. -/
theorem sup0_at (i : Fin 10000) (j : Fin 128) :
    Body.sup0 m c (ix2 i j) = Cert.GcnSpec.support0 argX argW1 i j := by
  unfold Body.sup0 Cert.GcnSpec.support0
  refine (Payloads.pay1_at (iblk m c 1 Body.t0) (iblk m c 2 Body.t0) i j).trans ?_
  exact Finset.sum_congr rfl fun p _ =>
    congrArg₂ (fun a b : EReal => a * b) (Blocks.blk1 m c Body.t0 i p) (Blocks.blk2 m c Body.t0 p j)

/-- The slice of first-layer point `t` is rows `400 t … 400 t + 399` of `hidden · W2`. -/
theorem slice_at (t : Fin cfg0.N) (ht : t.val < 25) (r : Fin 400) (q : Fin 128) :
    Body.slice m c t (ix2 r q)
      = Cert.GcnSpec.support1 argX argA argW1 argB1 argW2 ⟨400 * t.val + r.val, by have := r.isLt; omega⟩ q := by
  unfold Body.slice Cert.GcnSpec.support1 Cert.GcnSpec.hidden
  refine (Payloads.pay2_at (iblk m c 0 t) (Body.sup0 m c) (iblk m c 3 t) (iblk m c 4 t) r q).trans ?_
  refine Finset.sum_congr rfl fun j _ => ?_
  refine congrArg₂ (fun a b : EReal => a * b) ?_ (Blocks.blk4 m c t j q)
  refine congrArg (fun z : EReal => max z 0) ?_
  refine congrArg₂ (fun a b : EReal => a + b) ?_ (Blocks.blk3 m c t j)
  exact Finset.sum_congr rfl fun i _ =>
    congrArg₂ (fun a b : EReal => a * b) (Blocks.blk0_l0 m c t ht r i) (sup0_at m c i j)

/-- The second kept array, once every slice is in, is `hidden · W2` whole. -/
theorem sup1_at (k : Fin 10000) (q : Fin 128) :
    Body.sup1 m c (ix2 k q) = Cert.GcnSpec.support1 argX argA argW1 argB1 argW2 k q := by
  have hk := k.isLt
  unfold Body.sup1
  refine (slice_at m c ⟨k.val / 400, _⟩ (by show k.val / 400 < 25; omega) ⟨k.val % 400, _⟩ q).trans ?_
  exact congrArg (fun z => Cert.GcnSpec.support1 argX argA argW1 argB1 argW2 z q)
    (Fin.ext (by show 400 * (k.val / 400) + k.val % 400 = k.val; omega))

/-- The block second-layer point `t` writes is rows `400 (t − 25) … 400 (t − 25) + 399` of the network's result. -/
theorem outBlk_at (t : Fin cfg0.N) (h2 : 25 ≤ t.val) (r : Fin 400) (q : Fin 128) :
    Body.outBlk m c t (ix2 r q)
      = Cert.GcnSpec.resultAt argX argA argW1 argB1 argW2 argB2
          ⟨400 * (t.val - 25) + r.val, by
            have := r.isLt; have := t.isLt; have hN : cfg0.N = 50 := Body.N50; omega⟩ q := by
  unfold Body.outBlk Cert.GcnSpec.resultAt
  refine (Payloads.pay3_at (iblk m c 0 t) (Body.sup1 m c) (iblk m c 5 t) r q).trans ?_
  exact congrArg₂ (fun a b : EReal => a + b)
    (Finset.sum_congr rfl fun k _ =>
      congrArg₂ (fun a b : EReal => a * b) (Blocks.blk0_l1 m c t h2 r k) (sup1_at m c k q))
    (Blocks.blk5 m c t q)

end Cert.KernelIdeal.Bridge

end
-- ==== Proof.KernelIdealBody.ResultSpec.lean ====
/-
  The kernel's result array is the specification: its entry `(r, q)` is entry `(r mod 400, q)` of the block written by the
  second-layer point `25 + r / 400`, which is the specification's result at node `400 (r / 400) + r mod 400 = r`.
-/
import proofs.«161590_g70901320122855_cont_9to1c4b_733_13_alg».proof.Proof.KernelIdealBody.ResultArray
import proofs.«161590_g70901320122855_cont_9to1c4b_733_13_alg».proof.Proof.KernelIdealBody.Bridge

noncomputable section

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

theorem outArr_eq_spec :
    Body.outArr (F := Ideal) m c
      = Cert.GcnSpec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext j
  obtain ⟨r, q, rfl⟩ : ∃ (r : Fin 10000) (q : Fin 128), j = ix2 r q := ⟨j 0, j 1, eq_ix2 j⟩
  have hr := r.isLt
  refine (outBlk_at m c ⟨25 + r.val / 400, by rw [Body.N50]; omega⟩ (Nat.le_add_right _ _) ⟨r.val % 400, Nat.mod_lt _ (by omega)⟩ q).trans ?_
  exact congrArg (fun z => Cert.GcnSpec.resultAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) z q)
    (Fin.ext (by show 400 * (25 + r.val / 400 - 25) + r.val % 400 = r.val; omega))

end Cert.KernelIdeal.Bridge

end
-- ==== Proof.RefIsSpec.lean ====
/-
  The reference program computes the two-layer graph convolution of `GcnSpec`, entry by entry.

  Read stage by stage at an entry `(r, c)`:

    * a product of `[M, K]` with `[K, N]` is the sum over the contracted coordinate `k` of the left operand at `(r, k)` times
      the right operand at `(k, c)`;
    * taking the slab `adjs[s]` of `[2, 10000, 10000]` and dropping its leading axis of extent one gives, at `(r, k)`, the entry
      `adjs (s, r, k)`: the flat position `r · 10000 + k` of the square matrix is the flat position `(0, r, k)` of the slab;
    * a bias `[128]` first placed as one row `[1, 128]` and then repeated down 10000 rows gives, at `(r, c)`, the bias at `c`;
    * the nonlinearity is the maximum with a constant array of the zero word, which denotes the real number zero.

  Composing these in the order of the program gives exactly the nested sums of `GcnSpec.result`, in the same grouping: no sum
  is rearranged, so nothing is asked of the entries (they may be infinite).
-/
import proofs.«161590_g70901320122855_cont_9to1c4b_733_13_alg».proof.Proof.Gen.ReferenceIdeal.Read
import proofs.«161590_g70901320122855_cont_9to1c4b_733_13_alg».proof.Proof.GcnSpec

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem
open scoped BigOperators

variable (x : FVec Ideal S10000x128 .f32) (adjs : FVec Ideal S2x10000x10000 .f32) (W1 : FVec Ideal S128x128 .f32)
  (b1 : FVec Ideal S128 .f32) (W2 : FVec Ideal S128x128 .f32) (b2 : FVec Ideal S128 .f32)

/-! ## The first layer -/

/-- The first product, `x · W1`, at node `i`, feature `j`. -/
theorem support0_at (i : Fin 10000) (j : Fin 128) :
    val_main_v0 (F := Ideal) x W1 (ix2 i j) = Cert.GcnSpec.support0 x W1 i j := by
  rw [val_main_v0_apply]
  unfold Cert.GcnSpec.support0
  refine Finset.sum_congr rfl fun p _ => ?_
  have el : lidx_main_v0 (ix2 i j) p = ix2 i p := funext fun a => Fin.ext (by match a with | ⟨0, _⟩ => rfl | ⟨1, _⟩ => rfl)
  have er : ridx_main_v0 (ix2 i j) p = ix2 p j := funext fun a => Fin.ext (by match a with | ⟨0, _⟩ => rfl | ⟨1, _⟩ => rfl)
  rw [el, er]

/-- The first adjacency matrix as a square matrix: the slab `adjs[0]` without its leading axis. -/
theorem adj0_at (k i : Fin 10000) :
    val_main_v2 (F := Ideal) adjs (ix2 k i) = adjs (ix3 (0 : Fin 2) k i) := by
  rw [val_main_v2_apply, val_main_v1_apply]
  refine congrArg adjs (funext fun a => Fin.ext ?_)
  have hk := k.isLt
  have hi := i.isLt
  match a with
  | ⟨0, _⟩ => rfl
  | ⟨1, _⟩ => show (k.val * 10000 + i.val) / 10000 % 10000 = k.val; omega
  | ⟨2, _⟩ => show (k.val * 10000 + i.val) % 10000 = i.val; omega

/-- `adjs[0] · (x · W1)` at node `k`, feature `j`. -/
theorem agg0_at (k : Fin 10000) (j : Fin 128) :
    val_main_v3 (F := Ideal) x adjs W1 (ix2 k j)
      = ∑ i : Fin 10000, adjs (ix3 (0 : Fin 2) k i) * Cert.GcnSpec.support0 x W1 i j := by
  rw [val_main_v3_apply]
  refine Finset.sum_congr rfl fun i _ => ?_
  have el : lidx_main_v3 (ix2 k j) i = ix2 k i := funext fun a => Fin.ext (by match a with | ⟨0, _⟩ => rfl | ⟨1, _⟩ => rfl)
  have er : ridx_main_v3 (ix2 k j) i = ix2 i j := funext fun a => Fin.ext (by match a with | ⟨0, _⟩ => rfl | ⟨1, _⟩ => rfl)
  rw [el, er, adj0_at, support0_at]

/-- The first bias laid along every row. -/
theorem bias1_at (r : Fin 10000) (c : Fin 128) :
    val_main_v5 (F := Ideal) b1 (ix2 r c) = b1 (ix1 c) := by
  rw [val_main_v5_apply, val_main_v4_apply]
  exact congrArg b1 (funext fun a => Fin.ext (by match a with | ⟨0, _⟩ => rfl))

/-- The first layer after the maximum with zero. -/
theorem hidden_at (k : Fin 10000) (j : Fin 128) :
    val_main_v7 (F := Ideal) x adjs W1 b1 (ix2 k j) = Cert.GcnSpec.hidden x adjs W1 b1 k j := by
  rw [val_main_v7_apply, val_main_v6_apply, agg0_at, bias1_at, val_main_call0_v0_apply, val_main_call0_cst_apply]
  simp only [Ideal.maximumf_def, Ideal.addf_def, Ideal.ofBits_def, Ideal.ofBits_zero_f32]
  rfl

/-! ## The second layer -/

/-- `hidden · W2` at node `k`, feature `c`. -/
theorem support1_at (k : Fin 10000) (c : Fin 128) :
    val_main_v8 (F := Ideal) x adjs W1 b1 W2 (ix2 k c) = Cert.GcnSpec.support1 x adjs W1 b1 W2 k c := by
  rw [val_main_v8_apply]
  unfold Cert.GcnSpec.support1
  refine Finset.sum_congr rfl fun j _ => ?_
  have el : lidx_main_v8 (ix2 k c) j = ix2 k j := funext fun a => Fin.ext (by match a with | ⟨0, _⟩ => rfl | ⟨1, _⟩ => rfl)
  have er : ridx_main_v8 (ix2 k c) j = ix2 j c := funext fun a => Fin.ext (by match a with | ⟨0, _⟩ => rfl | ⟨1, _⟩ => rfl)
  rw [el, er, hidden_at]

/-- The second adjacency matrix as a square matrix: the slab `adjs[1]` without its leading axis. -/
theorem adj1_at (r k : Fin 10000) :
    val_main_v10 (F := Ideal) adjs (ix2 r k) = adjs (ix3 (1 : Fin 2) r k) := by
  rw [val_main_v10_apply, val_main_v9_apply]
  refine congrArg adjs (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- `adjs[1] · (hidden · W2)` at node `r`, feature `c`. -/
theorem agg1_at (r : Fin 10000) (c : Fin 128) :
    val_main_v11 (F := Ideal) x adjs W1 b1 W2 (ix2 r c)
      = ∑ k : Fin 10000, adjs (ix3 (1 : Fin 2) r k) * Cert.GcnSpec.support1 x adjs W1 b1 W2 k c := by
  rw [val_main_v11_apply]
  refine Finset.sum_congr rfl fun k _ => ?_
  have el : lidx_main_v11 (ix2 r c) k = ix2 r k := funext fun a => Fin.ext (by match a with | ⟨0, _⟩ => rfl | ⟨1, _⟩ => rfl)
  have er : ridx_main_v11 (ix2 r c) k = ix2 k c := funext fun a => Fin.ext (by match a with | ⟨0, _⟩ => rfl | ⟨1, _⟩ => rfl)
  rw [el, er, adj1_at, support1_at]

/-- The second bias laid along every row. -/
theorem bias2_at (r : Fin 10000) (c : Fin 128) :
    val_main_v13 (F := Ideal) b2 (ix2 r c) = b2 (ix1 c) := by
  rw [val_main_v13_apply, val_main_v12_apply]
  exact congrArg b2 (funext fun a => Fin.ext (by match a with | ⟨0, _⟩ => rfl))

/-! ## The whole network -/

/-- The reference's last stage is the specification's result array. -/
theorem ref_is_spec :
    val_main_v14 (F := Ideal) x adjs W1 b1 W2 b2 = Cert.GcnSpec.result x adjs W1 b1 W2 b2 := by
  funext i
  obtain ⟨r, c, rfl⟩ : ∃ (r : Fin 10000) (c : Fin 128), i = ix2 r c := ⟨i 0, i 1, eq_ix2 i⟩
  rw [Cert.GcnSpec.result_ix2, val_main_v14_apply, agg1_at, bias2_at]
  simp only [Ideal.addf_def]
  rfl

/-- Every execution of the reference ends with its result array holding the specification's result of the argument arrays as
    they were at the start, and with the six argument arrays unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v14)
        = Cert.GcnSpec.result (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run defs _ _).mono
    (fun _ h c => ⟨(h c).1.trans ((val_main_v14_eq _ _ _ _ _ _).trans (ref_is_spec _ _ _ _ _ _)), (h c).2⟩)
    (Cert.ReferenceIdeal.Value.run (F := Ideal) m' ρ')

end Cert.ReferenceIdeal.RefValue

end
-- ==== Proof.lean ====
/-
  A two-layer graph convolution on dense adjacency matrices, as one fused kernel against the plain jnp network.

  With `x : [10000, 128]`, `adjs : [2, 10000, 10000]`, `W1, W2 : [128, 128]`, `b1, b2 : [128]` both programs compute

      adjs[1] · (max (adjs[0] · (x · W1) + b1, 0) · W2) + b2

  (Proof/GcnSpec.lean). The reference does it with four whole matrix products. The kernel runs a 2 × 25 grid: at the first
  point it computes `x · W1` into a scratch buffer; at each of the 25 points of the first layer it takes 400 rows of
  `adjs[0]`, multiplies, adds the bias, clamps at zero, multiplies by `W2` and stores the 400 resulting rows into a second
  scratch buffer; at each of the 25 points of the second layer it takes 400 rows of `adjs[1]`, multiplies by the second
  scratch — complete by then — adds the bias and writes the 400 rows of the result. Over the extended reals the changes of
  float format in the kernel are the identity, so entry by entry the kernel's sums are the reference's sums, in the same
  grouping: no law beyond reading each product as its sum is needed, and the inputs' finiteness is not used.

  The parts: the body's run at each kind of grid point and what it leaves in the kept buffers (Proof/KernelIdealBody/, and
  the same text at the word-level program in Proof/KernelBody/, which the frame of that program needs); the result array
  assembled from the 25 blocks written back (ResultArray.lean); each stored value read at an entry as its sum
  (KernelPayloads.lean) over the argument arrays' entries (KernelBlocks.lean), which is the specification (KernelIdealBody/Bridge.lean, ResultSpec.lean);
  and the reference's run read the same way (RefIsSpec.lean).
-/
import proofs.«161590_g70901320122855_cont_9to1c4b_733_13_alg».proof.Defs
import proofs.«161590_g70901320122855_cont_9to1c4b_733_13_alg».proof.Proof.Gen.Kernel
import proofs.«161590_g70901320122855_cont_9to1c4b_733_13_alg».proof.Proof.Gen.KernelIdeal
import proofs.«161590_g70901320122855_cont_9to1c4b_733_13_alg».proof.Proof.Gen.ReferenceIdeal
import proofs.«161590_g70901320122855_cont_9to1c4b_733_13_alg».proof.Proof.Gen.ReferenceIdeal.Run
import proofs.«161590_g70901320122855_cont_9to1c4b_733_13_alg».proof.Proof.Gen.ReferenceIdeal.Read
import proofs.«161590_g70901320122855_cont_9to1c4b_733_13_alg».proof.Proof.Gen.Pre_finite_inputs
import proofs.«161590_g70901320122855_cont_9to1c4b_733_13_alg».proof.Proof.KernelBody.Obligation
import proofs.«161590_g70901320122855_cont_9to1c4b_733_13_alg».proof.Proof.KernelIdealBody.ResultSpec
import proofs.«161590_g70901320122855_cont_9to1c4b_733_13_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are the same function of arguments that agree:
    both are the specification. -/
theorem algebraic : Cert.algebraic_KernelIdeal_ReferenceIdeal := by
  intro m ρ m' ρ' _ hagree
  refine ⟨fun c => Cert.KernelIdeal.Body.outArr (F := Ideal) m c, Cert.KernelIdeal.Body.run_value (F := Ideal) m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]
  exact (Cert.KernelIdeal.Bridge.outArr_eq_spec m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
